-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S4096 : S_.BroadcastsInDim S4096 (![] : Fin 0 → Fin S4096.rank)
  reducesTo_S4096_S_d0 : S4096.ReducesTo [0] S_
  bcast_S_S20000x16x8 : S_.BroadcastsInDim S20000x16x8 (![] : Fin 0 → Fin S20000x16x8.rank)
  reducesTo_S20000x16x8_S_d0_1_2 : S20000x16x8.ReducesTo [0, 1, 2] S_
  bcast_S_S20000 : S_.BroadcastsInDim S20000 (![] : Fin 0 → Fin S20000.rank)
  reducesTo_S20000_S_d0 : S20000.ReducesTo [0] S_

variable [Facts]

def fn_part1 {F : FTy → Type} [FloatOps F] (main_arg4 : FVec F S20000 .f32) (main_v13 : IVec S_ 1) (main_v16 : IVec S20000x16x8 1) : IVec S_ 1 :=
  let main_c_5 : IVec S_ 1 := constantI S_ 1 1#1
  let main_v17 : IVec S_ 1 := (fun x v => Host.reduce IntOp.andi x v reducesTo_S20000x16x8_S_d0_1_2 h_S_) main_v16 main_c_5
  let main_v18 : IVec S_ 1 := andi main_v13 main_v17
  let main_v19 : FVec F S20000 .f32 := Host.absf main_arg4
  let main_cst_6 : FVec F S_ .f32 := constant S_ .f32 0x7F800000#32
  let main_v20 : FVec F S20000 .f32 := broadcastInDim S20000 ![] bcast_S_S20000 main_cst_6
  let main_v21 : IVec S20000 1 := cmpf .olt main_v19 main_v20
  let main_c_7 : IVec S_ 1 := constantI S_ 1 1#1
  let main_v22 : IVec S_ 1 := (fun x v => Host.reduce IntOp.andi x v reducesTo_S20000_S_d0 h_S_) main_v21 main_c_7
  let main_v23 : IVec S_ 1 := andi main_v18 main_v22
  main_v23

def fn {F : FTy → Type} [FloatOps F] (main_arg0 : FVec F S1024x512 .f32) (main_arg1 : FVec F S4096 .f32) (main_arg2 : FVec F S4096 .f32) (main_arg3 : FVec F S20000x16x8 .f32) (main_arg4 : FVec F S20000 .f32) (main_arg5 : IVec S20000x16 32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S20000x16x8 .f32 := Host.absf main_arg3
  let main_cst_4 : FVec F S_ .f32 := constant S_ .f32 0x7F800000#32
  let main_v15 : FVec F S20000x16x8 .f32 := broadcastInDim S20000x16x8 ![] bcast_S_S20000x16x8 main_cst_4
  let main_v16 : IVec S20000x16x8 1 := cmpf .olt main_v14 main_v15
  fn_part1 (F := F) main_arg4 main_v13 main_v16
-- ==== Kernel.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S1024x512x8 : Shape := ⟨3, ![1024, 512, 8]⟩
abbrev S1024x4096 : Shape := ⟨2, ![1024, 4096]⟩
abbrev S1x4096 : Shape := ⟨2, ![1, 4096]⟩
abbrev S_ : Shape := ⟨0, ![]⟩
abbrev S20000x16x1 : Shape := ⟨3, ![20000, 16, 1]⟩
abbrev S8 : Shape := ⟨1, ![8]⟩
abbrev S1x1x8 : Shape := ⟨3, ![1, 1, 8]⟩
abbrev S20000x128 : Shape := ⟨2, ![20000, 128]⟩
abbrev S20000x1 : Shape := ⟨2, ![20000, 1]⟩
abbrev S20480x4096 : Shape := ⟨2, ![20480, 4096]⟩
abbrev S20000x128x1 : Shape := ⟨3, ![20000, 128, 1]⟩
abbrev S20000x128x2 : Shape := ⟨3, ![20000, 128, 2]⟩
abbrev S20480 : Shape := ⟨1, ![20480]⟩
abbrev S1 : Shape := ⟨1, ![1]⟩
abbrev S1024x20480 : Shape := ⟨2, ![1024, 20480]⟩
abbrev S1024x1024 : Shape := ⟨2, ![1024, 1024]⟩
abbrev S512x1024 : Shape := ⟨2, ![512, 1024]⟩
abbrev S512 : Shape := ⟨1, ![512]⟩
abbrev S1x512 : Shape := ⟨2, ![1, 512]⟩
abbrev S1024x20000 : Shape := ⟨2, ![1024, 20000]⟩

abbrev nBuf : Space → Nat
  | .hbm => 63
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S4096, .f32⟩
  | .hbm, ⟨2, _⟩ => ⟨S4096, .f32⟩
  | .hbm, ⟨3, _⟩ => ⟨S20000x16x8, .f32⟩
  | .hbm, ⟨4, _⟩ => ⟨S20000, .f32⟩
  | .hbm, ⟨5, _⟩ => ⟨S20000x16, .i32⟩
  | .hbm, ⟨6, _⟩ => ⟨S1024x512x8, .f32⟩
  | .hbm, ⟨7, _⟩ => ⟨S1024x4096, .f32⟩
  | .hbm, ⟨8, _⟩ => ⟨S1x4096, .f32⟩
  | .hbm, ⟨9, _⟩ => ⟨S1024x4096, .f32⟩
  | .hbm, ⟨10, _⟩ => ⟨S1024x4096, .f32⟩
  | .hbm, ⟨11, _⟩ => ⟨S1x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S_, .f32⟩
  | .hbm, ⟨16, _⟩ => ⟨S1024x4096, .f32⟩
  | .hbm, ⟨17, _⟩ => ⟨S1024x4096, .i1⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S20000x16x1, .i32⟩
  | .hbm, ⟨23, _⟩ => ⟨S_, .i32⟩
  | .hbm, ⟨24, _⟩ => ⟨S20000x16x1, .i32⟩
  | .hbm, ⟨25, _⟩ => ⟨S20000x16x1, .i32⟩
  | .hbm, ⟨26, _⟩ => ⟨S8, .i32⟩
  | .hbm, ⟨27, _⟩ => ⟨S1x1x8, .i32⟩
  | .hbm, ⟨28, _⟩ => ⟨S20000x16x8, .i32⟩
  | .hbm, ⟨29, _⟩ => ⟨S20000x16x8, .i32⟩
  | .hbm, ⟨30, _⟩ => ⟨S20000x16x8, .i32⟩
  | .hbm, ⟨31, _⟩ => ⟨S20000x128, .i32⟩
  | .hbm, ⟨32, _⟩ => ⟨S20000, .i32⟩
  | .hbm, ⟨33, _⟩ => ⟨S20000x1, .i32⟩
  | .hbm, ⟨34, _⟩ => ⟨S20000x128, .i32⟩
  | .hbm, ⟨35, _⟩ => ⟨S_, .f32⟩
  | .hbm, ⟨36, _⟩ => ⟨S20480x4096, .f32⟩
  | .hbm, ⟨37, _⟩ => ⟨S20000x128, .f32⟩
  | .hbm, ⟨38, _⟩ => ⟨S_, .i32⟩
  | .hbm, ⟨39, _⟩ => ⟨S20000x128, .i32⟩
  | .hbm, ⟨40, _⟩ => ⟨S20000x128, .i1⟩
  | .hbm, ⟨41, _⟩ => ⟨S_, .i32⟩
  | .hbm, ⟨42, _⟩ => ⟨S20000x128, .i32⟩
  | .hbm, ⟨43, _⟩ => ⟨S20000x128, .i32⟩
  | .hbm, ⟨44, _⟩ => ⟨S20000x128, .i32⟩
  | .hbm, ⟨45, _⟩ => ⟨S_, .i32⟩
  | .hbm, ⟨46, _⟩ => ⟨S20000x128, .i32⟩
  | .hbm, ⟨47, _⟩ => ⟨S20000x128, .i1⟩
  | .hbm, ⟨48, _⟩ => ⟨S_, .i32⟩
  | .hbm, ⟨49, _⟩ => ⟨S20000x128, .i32⟩
  | .hbm, ⟨50, _⟩ => ⟨S20000x128, .i32⟩
  | .hbm, ⟨51, _⟩ => ⟨S20000x128, .i32⟩
  | .hbm, ⟨52, _⟩ => ⟨S20000x128x1, .i32⟩
  | .hbm, ⟨53, _⟩ => ⟨S20000x128x1, .i32⟩
  | .hbm, ⟨54, _⟩ => ⟨S20000x128x2, .i32⟩
  | .hbm, ⟨55, _⟩ => ⟨S20480x4096, .f32⟩
  | .hbm, ⟨56, _⟩ => ⟨S_, .f32⟩
  | .hbm, ⟨57, _⟩ => ⟨S20480, .f32⟩
  | .hbm, ⟨58, _⟩ => ⟨S_, .i32⟩
  | .hbm, ⟨59, _⟩ => ⟨S1, .i32⟩
  | .hbm, ⟨60, _⟩ => ⟨S20480, .f32⟩
  | .hbm, ⟨61, _⟩ => ⟨S1024x20480, .f32⟩
  | .hbm, ⟨62, _⟩ => ⟨S1024x20000, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![40, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S1024x512_S1024x512x8_0_1 : S1024x512.BroadcastsInDim S1024x512x8 (![0, 1] : Fin 2 → Fin S1024x512x8.rank)
  shapeCasts_S1024x512x8_S1024x4096 : S1024x512x8.ShapeCasts S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  bcast_S20000x16_S20000x16x1_0_1 : S20000x16.BroadcastsInDim S20000x16x1 (![0, 1] : Fin 2 → Fin S20000x16x1.rank)
  bcast_S_S20000x16x1 : S_.BroadcastsInDim S20000x16x1 (![] : Fin 0 → Fin S20000x16x1.rank)
  bcast_S8_S1x1x8_2 : S8.BroadcastsInDim S1x1x8 (![2] : Fin 1 → Fin S1x1x8.rank)
  bcast_S20000x16x1_S20000x16x8_0_1_2 : S20000x16x1.BroadcastsInDim S20000x16x8 (![0, 1, 2] : Fin 3 → Fin S20000x16x8.rank)
  bcast_S1x1x8_S20000x16x8_0_1_2 : S1x1x8.BroadcastsInDim S20000x16x8 (![0, 1, 2] : Fin 3 → Fin S20000x16x8.rank)
  shapeCasts_S20000x16x8_S20000x128 : S20000x16x8.ShapeCasts S20000x128
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20480x4096 : S_.BroadcastsInDim S20480x4096 (![] : Fin 0 → Fin S20480x4096.rank)
  bcast_S_S20000x128 : S_.BroadcastsInDim S20000x128 (![] : Fin 0 → Fin S20000x128.rank)
  bcast_S20000x128_S20000x128x1_0_1 : S20000x128.BroadcastsInDim S20000x128x1 (![0, 1] : Fin 2 → Fin S20000x128x1.rank)
  concatenates_S20000x128x1_S20000x128x1_S20000x128x2_d2 : Shape.Concatenates [S20000x128x1, S20000x128x1] S20000x128x2 2
  bcast_S_S20480 : S_.BroadcastsInDim S20480 (![] : Fin 0 → Fin S20480.rank)
  bcast_S_S1 : S_.BroadcastsInDim S1 (![] : Fin 0 → Fin S1.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  slices_S1024x20480_S1024x20000_0_0 : S1024x20480.Slices ![0, 0] S1024x20000
  scatter_S20480x4096_S20000x128x2_S20000x128_n_01_01_2_wf : ScatterDims.WF S20480x4096 S20000x128x2 S20000x128 [] [0, 1] [0, 1] 2
  scatter_S20480_S1_S20000_0_n_0_0_wf : ScatterDims.WF S20480 S1 S20000 [0] [] [0] 0
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S20480x4096.size a
  hwx0_1 : ∀ i : grid0.Coords, EltTy.bits .f32 = 32 ∨ (Rect.block (s := S20480x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S20480.size a
  hwx0_2 : ∀ i : grid0.Coords, EltTy.bits .f32 = 32 ∨ (Rect.block (s := S20480) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x20480.size a
  hwx0_3 : ∀ i : grid0.Coords, EltTy.bits .f32 = 32 ∨ (Rect.block (s := S1024x20480) S1024x512.size (cc0_transform_3 i) (hinb0_3 i)).WholeWords (EltTy.packing .f32)

variable [Facts₀]

def scatter_S20480x4096_S20000x128x2_S20000x128_n_01_01_2 : ScatterDims S20480x4096 S20000x128x2 S20000x128 where
  updateWindowDims := []
  insertedWindowDims := [0, 1]
  scatterDimsToOperandDims := [0, 1]
  indexVectorDim := 2
  wf := scatter_S20480x4096_S20000x128x2_S20000x128_n_01_01_2_wf
def scatter_S20480_S1_S20000_0_n_0_0 : ScatterDims S20480 S1 S20000 where
  updateWindowDims := [0]
  insertedWindowDims := []
  scatterDimsToOperandDims := [0]
  indexVectorDim := 0
  wf := scatter_S20480_S1_S20000_0_n_0_0_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x512 : Shape := ⟨2, ![1024, 512]⟩
abbrev S4096 : Shape := ⟨1, ![4096]⟩
abbrev S20000x16x8 : Shape := ⟨3, ![20000, 16, 8]⟩
abbrev S20000 : Shape := ⟨1, ![20000]⟩
abbrev S20000x16 : Shape := ⟨2, ![20000, 16]⟩
abbrev S1024x512x8 : Shape := ⟨3, ![1024, 512, 8]⟩
abbrev S1024x4096 : Shape := ⟨2, ![1024, 4096]⟩
abbrev S1x4096 : Shape := ⟨2, ![1, 4096]⟩
abbrev S_ : Shape := ⟨0, ![]⟩
abbrev S20000x16x1 : Shape := ⟨3, ![20000, 16, 1]⟩
abbrev S8 : Shape := ⟨1, ![8]⟩
abbrev S1x1x8 : Shape := ⟨3, ![1, 1, 8]⟩
abbrev S20000x128 : Shape := ⟨2, ![20000, 128]⟩
abbrev S20000x1 : Shape := ⟨2, ![20000, 1]⟩
abbrev S20000x4096 : Shape := ⟨2, ![20000, 4096]⟩
abbrev S20000x128x1 : Shape := ⟨3, ![20000, 128, 1]⟩
abbrev S20000x128x2 : Shape := ⟨3, ![20000, 128, 2]⟩
abbrev S4096x20000 : Shape := ⟨2, ![4096, 20000]⟩
abbrev S1024x20000 : Shape := ⟨2, ![1024, 20000]⟩
abbrev S1x20000 : Shape := ⟨2, ![1, 20000]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S4096, .f32⟩
  | .hbm, ⟨2, _⟩ => ⟨S4096, .f32⟩
  | .hbm, ⟨3, _⟩ => ⟨S20000x16x8, .f32⟩
  | .hbm, ⟨4, _⟩ => ⟨S20000, .f32⟩
  | .hbm, ⟨5, _⟩ => ⟨S20000x16, .i32⟩
  | .hbm, ⟨6, _⟩ => ⟨S1024x512x8, .f32⟩
  | .hbm, ⟨7, _⟩ => ⟨S1024x4096, .f32⟩
  | .hbm, ⟨8, _⟩ => ⟨S1x4096, .f32⟩
  | .hbm, ⟨9, _⟩ => ⟨S1024x4096, .f32⟩
  | .hbm, ⟨10, _⟩ => ⟨S1024x4096, .f32⟩
  | .hbm, ⟨11, _⟩ => ⟨S1x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S_, .f32⟩
  | .hbm, ⟨16, _⟩ => ⟨S1024x4096, .f32⟩
  | .hbm, ⟨17, _⟩ => ⟨S1024x4096, .i1⟩
  | .hbm, ⟨18, _⟩ => ⟨S_, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S20000x16x1, .i32⟩
  | .hbm, ⟨23, _⟩ => ⟨S_, .i32⟩
  | .hbm, ⟨24, _⟩ => ⟨S20000x16x1, .i32⟩
  | .hbm, ⟨25, _⟩ => ⟨S20000x16x1, .i32⟩
  | .hbm, ⟨26, _⟩ => ⟨S8, .i32⟩
  | .hbm, ⟨27, _⟩ => ⟨S1x1x8, .i32⟩
  | .hbm, ⟨28, _⟩ => ⟨S20000x16x8, .i32⟩
  | .hbm, ⟨29, _⟩ => ⟨S20000x16x8, .i32⟩
  | .hbm, ⟨30, _⟩ => ⟨S20000x16x8, .i32⟩
  | .hbm, ⟨31, _⟩ => ⟨S20000x128, .i32⟩
  | .hbm, ⟨32, _⟩ => ⟨S20000, .i32⟩
  | .hbm, ⟨33, _⟩ => ⟨S20000x1, .i32⟩
  | .hbm, ⟨34, _⟩ => ⟨S20000x128, .i32⟩
  | .hbm, ⟨35, _⟩ => ⟨S_, .f32⟩
  | .hbm, ⟨36, _⟩ => ⟨S20000x4096, .f32⟩
  | .hbm, ⟨37, _⟩ => ⟨S20000x128, .f32⟩
  | .hbm, ⟨38, _⟩ => ⟨S_, .i32⟩
  | .hbm, ⟨39, _⟩ => ⟨S20000x128, .i32⟩
  | .hbm, ⟨40, _⟩ => ⟨S20000x128, .i1⟩
  | .hbm, ⟨41, _⟩ => ⟨S_, .i32⟩
  | .hbm, ⟨42, _⟩ => ⟨S20000x128, .i32⟩
  | .hbm, ⟨43, _⟩ => ⟨S20000x128, .i32⟩
  | .hbm, ⟨44, _⟩ => ⟨S20000x128, .i32⟩
  | .hbm, ⟨45, _⟩ => ⟨S_, .i32⟩
  | .hbm, ⟨46, _⟩ => ⟨S20000x128, .i32⟩
  | .hbm, ⟨47, _⟩ => ⟨S20000x128, .i1⟩
  | .hbm, ⟨48, _⟩ => ⟨S_, .i32⟩
  | .hbm, ⟨49, _⟩ => ⟨S20000x128, .i32⟩
  | .hbm, ⟨50, _⟩ => ⟨S20000x128, .i32⟩
  | .hbm, ⟨51, _⟩ => ⟨S20000x128, .i32⟩
  | .hbm, ⟨52, _⟩ => ⟨S20000x128x1, .i32⟩
  | .hbm, ⟨53, _⟩ => ⟨S20000x128x1, .i32⟩
  | .hbm, ⟨54, _⟩ => ⟨S20000x128x2, .i32⟩
  | .hbm, ⟨55, _⟩ => ⟨S20000x4096, .f32⟩
  | .hbm, ⟨56, _⟩ => ⟨S4096x20000, .f32⟩
  | .hbm, ⟨57, _⟩ => ⟨S1024x20000, .f32⟩
  | .hbm, ⟨58, _⟩ => ⟨S1x20000, .f32⟩
  | .hbm, ⟨59, _⟩ => ⟨S1024x20000, .f32⟩
  | .hbm, ⟨60, _⟩ => ⟨S1024x20000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_c_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S1024x512_S1024x512x8_0_1 : S1024x512.BroadcastsInDim S1024x512x8 (![0, 1] : Fin 2 → Fin S1024x512x8.rank)
  shapeCasts_S1024x512x8_S1024x4096 : S1024x512x8.ShapeCasts S1024x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  bcast_S20000x16_S20000x16x1_0_1 : S20000x16.BroadcastsInDim S20000x16x1 (![0, 1] : Fin 2 → Fin S20000x16x1.rank)
  bcast_S_S20000x16x1 : S_.BroadcastsInDim S20000x16x1 (![] : Fin 0 → Fin S20000x16x1.rank)
  bcast_S8_S1x1x8_2 : S8.BroadcastsInDim S1x1x8 (![2] : Fin 1 → Fin S1x1x8.rank)
  bcast_S20000x16x1_S20000x16x8_0_1_2 : S20000x16x1.BroadcastsInDim S20000x16x8 (![0, 1, 2] : Fin 3 → Fin S20000x16x8.rank)
  bcast_S1x1x8_S20000x16x8_0_1_2 : S1x1x8.BroadcastsInDim S20000x16x8 (![0, 1, 2] : Fin 3 → Fin S20000x16x8.rank)
  shapeCasts_S20000x16x8_S20000x128 : S20000x16x8.ShapeCasts S20000x128
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x4096 : S_.BroadcastsInDim S20000x4096 (![] : Fin 0 → Fin S20000x4096.rank)
  bcast_S_S20000x128 : S_.BroadcastsInDim S20000x128 (![] : Fin 0 → Fin S20000x128.rank)
  bcast_S20000x128_S20000x128x1_0_1 : S20000x128.BroadcastsInDim S20000x128x1 (![0, 1] : Fin 2 → Fin S20000x128x1.rank)
  concatenates_S20000x128x1_S20000x128x1_S20000x128x2_d2 : Shape.Concatenates [S20000x128x1, S20000x128x1] S20000x128x2 2
  transposes_S20000x4096_S4096x20000_1_0 : S20000x4096.Transposes [1, 0] S4096x20000
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  scatter_S20000x4096_S20000x128x2_S20000x128_n_01_01_2_wf : ScatterDims.WF S20000x4096 S20000x128x2 S20000x128 [] [0, 1] [0, 1] 2
  dot_S1024x4096_S4096x20000_S1024x20000_1_0_0_1_n_n_wf : DotDims.WF S1024x4096 S4096x20000 S1024x20000 [1] [0] [0] [1] [] []

variable [Facts₀]

def scatter_S20000x4096_S20000x128x2_S20000x128_n_01_01_2 : ScatterDims S20000x4096 S20000x128x2 S20000x128 where
  updateWindowDims := []
  insertedWindowDims := [0, 1]
  scatterDimsToOperandDims := [0, 1]
  indexVectorDim := 2
  wf := scatter_S20000x4096_S20000x128x2_S20000x128_n_01_01_2_wf
def dot_S1024x4096_S4096x20000_S1024x20000_1_0_0_1_n_n : DotDims S1024x4096 S4096x20000 S1024x20000 where
  lhsContracting := [1]
  rhsContracting := [0]
  lhsNonContracting := [0]
  rhsNonContracting := [1]
  lhsBatch := []
  rhsBatch := []
  wf := dot_S1024x4096_S4096x20000_S1024x20000_1_0_0_1_n_n_wf

class Facts : Prop extends Facts₀ where

variable [Facts]
-- ==== Proof.KPieces.lean ====
/-
  What one run of the kernel body leaves behind, as values: the accumulator after a reset step is the product of the
  two fetched tiles added to the zero tile; after any other step it is the product added to what the step before left; at
  the last step of a row of the grid the output tile is the accumulator plus the bias row spread over the rows.
-/
import proofs.«117365_j45011257262638_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A step that is neither first nor last in its row: the accumulator, holding acc, is left at the product plus acc. -/
theorem acc_B (c : Dev nD) (i : grid0.Coords) (a2 : Memref sig .tc .vmem S1024x1024 .f32) (h2 : a2.IsWhole)
    (a3 : Memref sig .tc .vmem S512x1024 .f32) (h3 : a3.IsWhole) (a4 : Memref sig .tc .vmem S512 .f32) (h4 : a4.IsWhole)
    (a5 : Memref sig .tc .vmem S1024x512 .f32) (h5 : a5.IsWhole) (a6 : Memref sig .tc .vmem S1024x512 .f32) (h6 : a6.IsWhole)
    (hc0 : ¬cond0_0 i) (hc1 : ¬cond0_1 i) (x0 : Vec F S1024x1024 .f32) (x1 : Vec F S512x1024 .f32) (x2 : Vec F S512 .f32)
    (acc : Vec F S1024x512 .f32) :
    sout0_B_0 c i a2 h2 a3 h3 a4 h4 a5 h5 a6 h6 hc0 hc1 x0 x1 x2 acc = k0_pay2 x0 x1 acc := by
  unfold sout0_B_0
  rw [View.read_writes_eq_canon _ _ _ (scover0_B_0 c i a2 h2 a3 h3 a4 h4 a5 h5 a6 h6 hc0 hc1 x0 x1 x2 acc)]
  unfold kernelRun0_B
  dsimp only
  rw [View.canon_unit_zero hz]
  simp only [View.readAt_eq_ld, h2.read_unread, h3.read_unread, h6.read_unread, View.ld_unit_zero (S := S1024x1024) hz,
    View.ld_unit_zero (S := S512x1024) hz, View.ld_unit_zero (S := S1024x512) hz]

/-- The last step of a row: the accumulator is left as at any other step. -/
theorem acc_C (c : Dev nD) (i : grid0.Coords) (a2 : Memref sig .tc .vmem S1024x1024 .f32) (h2 : a2.IsWhole)
    (a3 : Memref sig .tc .vmem S512x1024 .f32) (h3 : a3.IsWhole) (a4 : Memref sig .tc .vmem S512 .f32) (h4 : a4.IsWhole)
    (a5 : Memref sig .tc .vmem S1024x512 .f32) (h5 : a5.IsWhole) (a6 : Memref sig .tc .vmem S1024x512 .f32) (h6 : a6.IsWhole)
    (hc0 : ¬cond0_0 i) (hc1 : cond0_1 i) (x0 : Vec F S1024x1024 .f32) (x1 : Vec F S512x1024 .f32) (x2 : Vec F S512 .f32)
    (acc : Vec F S1024x512 .f32) :
    sout0_C_0 c i a2 h2 a3 h3 a4 h4 a5 h5 a6 h6 hc0 hc1 x0 x1 x2 acc = k0_pay2 x0 x1 acc := by
  unfold sout0_C_0
  rw [View.read_writes_eq_canon _ _ _ (scover0_C_0 c i a2 h2 a3 h3 a4 h4 a5 h5 a6 h6 hc0 hc1 x0 x1 x2 acc)]
  unfold kernelRun0_C
  dsimp only
  sl_unfold_words
  rw [View.canon_unit_zero hz]
  simp only [View.readAt_eq_ld, h2.read_unread, h3.read_unread, h6.read_unread, View.ld_unit_zero (S := S1024x1024) hz,
    View.ld_unit_zero (S := S512x1024) hz, View.ld_unit_zero (S := S1024x512) hz]

/-- The last step of a row: the output tile is the bias row spread over the rows, added to the accumulator just left. -/
theorem out_C (c : Dev nD) (i : grid0.Coords) (a2 : Memref sig .tc .vmem S1024x1024 .f32) (h2 : a2.IsWhole)
    (a3 : Memref sig .tc .vmem S512x1024 .f32) (h3 : a3.IsWhole) (a4 : Memref sig .tc .vmem S512 .f32) (h4 : a4.IsWhole)
    (a5 : Memref sig .tc .vmem S1024x512 .f32) (h5 : a5.IsWhole) (a6 : Memref sig .tc .vmem S1024x512 .f32) (h6 : a6.IsWhole)
    (hc0 : ¬cond0_0 i) (hc1 : cond0_1 i) (x0 : Vec F S1024x1024 .f32) (x1 : Vec F S512x1024 .f32) (x2 : Vec F S512 .f32)
    (acc : Vec F S1024x512 .f32) :
    out0_C_3 c i a2 h2 a3 h3 a4 h4 a5 h5 a6 h6 hc0 hc1 x0 x1 x2 acc = k0_pay3 (k0_pay2 x0 x1 acc) x2 := by
  unfold out0_C_3
  rw [View.read_writes_eq_canon _ _ _ (cover0_C_3 c i a2 h2 a3 h3 a4 h4 a5 h5 a6 h6 hc0 hc1 x0 x1 x2 acc)]
  unfold kernelRun0_C
  dsimp only
  sl_unfold_words
  rw [View.canon_unit_zero hz, View.readCov_unit_zero (S := S1024x512) _ hz]
  simp only [View.readAt_eq_ld, h2.read_unread, h3.read_unread, h4.read_unread, h6.read_unread, View.ld_unit_zero (S := S1024x1024) hz,
    View.ld_unit_zero (S := S512x1024) hz, View.ld_unit_zero (S := S1024x512) hz, View.ld_unit_zero (S := S512) hz1]

/-- The first step of a row: the accumulator is reset to the zero tile and then left at the product plus that tile. -/
theorem acc_A (c : Dev nD) (i : grid0.Coords) (a2 : Memref sig .tc .vmem S1024x1024 .f32) (h2 : a2.IsWhole)
    (a3 : Memref sig .tc .vmem S512x1024 .f32) (h3 : a3.IsWhole) (a4 : Memref sig .tc .vmem S512 .f32) (h4 : a4.IsWhole)
    (a5 : Memref sig .tc .vmem S1024x512 .f32) (h5 : a5.IsWhole) (a6 : Memref sig .tc .vmem S1024x512 .f32) (h6 : a6.IsWhole)
    (hc0 : cond0_0 i) (hc1 : ¬cond0_1 i) (x0 : Vec F S1024x1024 .f32) (x1 : Vec F S512x1024 .f32) (x2 : Vec F S512 .f32) :
    sout0_A_0 c i a2 h2 a3 h3 a4 h4 a5 h5 a6 h6 hc0 hc1 x0 x1 x2 = k0_pay2 x0 x1 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x512) hz, View.readCov_unit_zero (S := S1024x512) _ hz]
  simp only [View.readAt_eq_ld, h2.read_unread, h3.read_unread, View.ld_unit_zero (S := S1024x1024) hz,
    View.ld_unit_zero (S := S512x1024) hz]

end Cert.KernelIdeal.Pieces

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibRowsDot.lean ====
/-
  A dense layer's two ingredients, read at an entry.

  A dense layer h ↦ h · Wᵀ + b with the weights stored output-coordinate first is, in a kernel, a product whose right
  operand is contracted along its ROWS, started from the zero accumulator, plus the bias vector made a one-row matrix
  and spread over the rows. Read on the extended reals at (p, q): the product is Σ_k lhs (p, k) · rhs (q, k), and the
  spread bias is the bias at q. Both for any extents.
-/
import proofs.«117365_j45011257262638_2_alg».proof.Proof.LibTransDot
import Idealize.ShloMosaic.Lib.ValueLayout
import Idealize.ShloMosaic.PureOps.Ideal.Laws

noncomputable section

namespace RowsDot

open Idealize.ShloMosaic Idealize.ShloMosaic.ValueIdx

/-- A product whose right operand is contracted along its rows, into the zero accumulator, at an entry. -/
theorem rowsDot_apply {M K N : ℕ} (lhs : FVec Ideal ⟨2, ![M, K]⟩ .f32) (rhs : FVec Ideal ⟨2, ![N, K]⟩ .f32)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) :=
  (Ideal.matmul_constant_zero_apply (DotDims.transposedRhs M K N) none lhs rhs (ix2 p q)).trans
    (Cert.TransDot.contraction_eq lhs rhs p q)

/-- A bias vector made a [1, C] row and spread over M rows reads, at (p, j), the vector at j. -/
theorem biasRow_apply {α : Type} {M C : ℕ} (b : (⟨1, ![C]⟩ : Shape).Idx → α)
    (h1 : (⟨1, ![C]⟩ : Shape).ShapeCasts ⟨2, ![1, C]⟩) (h2 : (⟨2, ![1, C]⟩ : Shape).Broadcasts ⟨2, ![M, C]⟩)
    (p : Fin M) (j : Fin C) :
    broadcastTo ⟨2, ![M, C]⟩ (shapeCast ⟨2, ![1, C]⟩ b h1) h2 (ix2 p j) = b (ix1 j) :=
  (broadcastTo_1b_ab_apply _ h2 p j).trans (shapeCast_a_1a_apply b h1 (0 : Fin 1) j)

end RowsDot

end
-- ==== Proof.KTile.lean ====
/-
  The body's arithmetic at an entry, on the extended reals: the reset tile is zero; an accumulation step adds to entry
  (p, q) of the accumulator the sum over the 1024 positions r of the stretch of h-tile(p, r) · W-tile(q, r) — the change to
  bf16 is the identity on the extended reals —; the final step adds bias(q).
-/
import proofs.«117365_j45011257262638_2_alg».proof.Proof.Gen.KernelIdeal.Skeleton
import proofs.«117365_j45011257262638_2_alg».proof.Proof.LibRowsDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Gen

/-- The reset tile is zero everywhere. -/
theorem pay1_apply (p : Fin 1024) (q : Fin 512) : k0_pay1 (F := Ideal) (ix2 p q) = 0 := by
  unfold k0_pay1
  simp only [shapeCast_self]
  rw [broadcast_apply]
  exact Ideal.ofBits_zero_f32

/-- An accumulation step at (p, q): what the accumulator held there plus the stretch's sum of products. -/
theorem pay2_apply (x0 : Vec Ideal S1024x1024 .f32) (x1 : Vec Ideal S512x1024 .f32) (acc : Vec Ideal S1024x512 .f32)
    (p : Fin 1024) (q : Fin 512) :
    k0_pay2 (F := Ideal) x0 x1 acc (ix2 p q) = acc (ix2 p q) + ∑ r : Fin 1024, x0 (ix2 p r) * x1 (ix2 q r) := by
  unfold k0_pay2
  simp only [shapeCast_self]
  rw [addf_apply]
  exact congrArg (acc (ix2 p q) + ·) (RowsDot.rowsDot_apply (M := 1024) (K := 1024) (N := 512) x0 x1 p q)

/-- The final step at (p, q): the accumulator there plus the bias at q. -/
theorem pay3_apply (acc : Vec Ideal S1024x512 .f32) (x2 : Vec Ideal S512 .f32) (p : Fin 1024) (q : Fin 512) :
    k0_pay3 (F := Ideal) acc x2 (ix2 p q) = acc (ix2 p q) + x2 (ix1 q) := by
  unfold k0_pay3
  simp only [shapeCast_self]
  rw [addf_apply]
  exact congrArg (acc (ix2 p q) + ·) (RowsDot.biasRow_apply (M := 1024) (C := 512) x2 _ _ p q)

end Cert.KernelIdeal.Tile

end
-- ==== Proof.LibScatterRows.lean ====
/-
  A row scatter that accumulates, read at an index, and the sum it equals when each row goes to the row numbered by
  its own number divided by K.

  What `x.at[idx].add(U)` of an array `x : [N, C]`, an integer vector `idx : [R]` and updates `U : [R, C]` lowers to is a
  scatter with an add body, update window axis 1, inserted window axis 0, scatter-dims-to-operand-dims [0] and index vector
  axis 1 over the indices as `[R, 1]`: row `p` of `U` is added to the row of `x` whose number is `idx[p, 0]` read as a
  signed integer, and a row whose index lies outside `[0, N)` is dropped. On the extended reals:

  (A) the result at (t, c) is `x (t, c)` plus the sum of `U (p, c)` over the rows `p` with `idx[p, 0] = t`
      (`scatterAdd_rows_apply`; `resultIdx?_rows_iff` says which update element lands where, from the general
      `resultIdx?_eq_some_iff`: an update lands on `i` exactly when start plus window coordinate is `i`'s coordinate on
      every axis);
  (B) when `idx[p, 0] = p / K` for every row (K positive, `N * K ≤ R`), the rows landing on row `t` are
      `K * t + k` for `k < K`, so the result at (t, c) is `x (t, c) + ∑ k < K, U (K * t + k, c)` (`scatterAdd_rows_div`);
  (C) the sum over the MIDDLE axis of `U` read row-major as `[N, K, C]` — position (t, k, c) is row `K * t + k`, column
      `c` — from an initial value `init` is at (t, c) `init + ∑ k < K, U (K * t + k, c)` (`reshape_midsum_apply`);
  (D) so with `x` zero everywhere and `init` zero the two arrays are equal (`combine_law`; `combine_law_zero_f32` with
      the zeros written as the f32 constant `0.0`, broadcast on the scatter's side).

  The extents N, K, C, R are arbitrary.
-/
import Idealize.ShloMosaic.Lib.ValueIdx
import Idealize.ShloMosaic.Lib.Pipeline.Value
import Idealize.ShloMosaic.PureOps.Ideal.Laws

namespace ScatterRows

open Idealize.ShloMosaic Idealize.ShloMosaic.ValueIdx

/-- An update lands on operand element `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hc =>
      intro a
      have e := congrFun (Option.some.inj h) a
      have e' : (d.start j idx a + (d.window j a : ℤ)).toNat = (i a).val := congrArg Fin.val e
      have := (hc a).1
      omega
    · exact absurd h (by simp)
  · intro h
    have hc : ∀ a, 0 ≤ d.start j idx a + (d.window j a : ℤ) ∧ d.start j idx a + (d.window j a : ℤ) < s.size a := by
      intro a
      have := h a
      have := (i a).isLt
      omega
    rw [dif_pos hc]
    refine congrArg some (funext fun a => Fin.ext ?_)
    show (d.start j idx a + (d.window j a : ℤ)).toNat = (i a).val
    have := h a
    omega

/-- The dimension numbers of a row scatter into an operand `[N, C]` at scatter indices `[R, 1]` with updates `[R, C]`. -/
abbrev rowDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable {N C R w : Nat} (wf : ScatterDims.WF ⟨2, ![N, C]⟩ ⟨2, ![R, 1]⟩ ⟨2, ![R, C]⟩ [1] [0] [0] 1)

/-- On the operand's row axis the window of update element (p, c) starts at row p's index, read signed. -/
theorem start_zero (idx : IVec ⟨2, ![R, 1]⟩ w) (p : Fin R) (c : Fin C) :
    (rowDims N C R wf).start (ix2 p c) idx (0 : Fin 2) = (idx (ix2 p (0 : Fin 1))).toInt := by
  unfold ScatterDims.start
  rw [dif_pos (show (0 : Fin 2) ∈ (rowDims N C R wf).scatterDimsToOperandDims from List.mem_singleton.mpr rfl)]
  have hsi : (rowDims N C R wf).siIdx (ix2 p c) ⟨List.idxOf (0 : Fin 2) (rowDims N C R wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- On the operand's column axis every window starts at 0. -/
theorem start_one (idx : IVec ⟨2, ![R, 1]⟩ w) (j : (⟨2, ![R, C]⟩ : Shape).Idx) :
    (rowDims N C R wf).start j idx (1 : Fin 2) = 0 := by
  unfold ScatterDims.start
  exact dif_neg (by decide : (1 : Fin 2) ∉ ([0] : List (Fin 2)))

/-- The window coordinate on the operand's row axis, an inserted axis, is 0. -/
theorem window_zero (j : (⟨2, ![R, C]⟩ : Shape).Idx) : (rowDims N C R wf).window j (0 : Fin 2) = 0 := by
  unfold ScatterDims.window
  exact dif_neg (show (0 : Fin 2) ∉ (List.finRange 2).filter (· ∉ [(0 : Fin 2)]) by decide)

/-- The window coordinate on the operand's column axis is the update element's column. -/
theorem window_one (j : (⟨2, ![R, C]⟩ : Shape).Idx) : (rowDims N C R wf).window j (1 : Fin 2) = (j 1).val := by
  unfold ScatterDims.window
  have h1 : (1 : Fin 2) ∈ (rowDims N C R wf).sKept :=
    show (1 : Fin 2) ∈ (List.finRange 2).filter (· ∉ [(0 : Fin 2)]) by decide
  rw [dif_pos h1]
  rfl

end

section
variable {N C R w : Nat} (wf : ScatterDims.WF ⟨2, ![N, C]⟩ ⟨2, ![R, 1]⟩ ⟨2, ![R, C]⟩ [1] [0] [0] 1)

/-- Update element (p, c') lands on operand element (t, c) exactly when row p's index, read signed, is t and c' = c. -/
theorem resultIdx?_rows_iff (idx : IVec ⟨2, ![R, 1]⟩ w) (p : Fin R) (c' : Fin C) (t : Fin N) (c : Fin C) :
    (rowDims N C R wf).resultIdx? (ix2 p c') idx = some (ix2 t c)
      ↔ (idx (ix2 p (0 : Fin 1))).toInt = (t.val : ℤ) ∧ c' = c := by
  rw [resultIdx?_eq_some_iff, Fin.forall_fin_two, start_zero, start_one, window_zero, window_one]
  show (idx (ix2 p (0 : Fin 1))).toInt + ((0 : ℕ) : ℤ) = (t.val : ℤ) ∧ (0 : ℤ) + (c'.val : ℤ) = (c.val : ℤ) ↔ _
  constructor
  · rintro ⟨h0, h1⟩
    exact ⟨by omega, Fin.ext (by omega)⟩
  · rintro ⟨h0, rfl⟩
    exact ⟨by omega, by omega⟩

/-- The accumulating row scatter at (t, c): the operand there plus the sum of column c of the update rows whose index is t. -/
theorem scatterAdd_rows_apply (x : (⟨2, ![N, C]⟩ : Shape).Idx → EReal) (idx : IVec ⟨2, ![R, 1]⟩ w)
    (upd : (⟨2, ![R, C]⟩ : Shape).Idx → EReal) (t : Fin N) (c : Fin C) :
    Ideal.hostScatterAdd (rowDims N C R wf) x idx upd (ix2 t c)
      = x (ix2 t c) + ∑ p ∈ Finset.univ.filter (fun p : Fin R => (idx (ix2 p (0 : Fin 1))).toInt = (t.val : ℤ)), upd (ix2 p c) := by
  unfold Ideal.hostScatterAdd
  congr 1
  symm
  refine Finset.sum_bij (fun p _ => ix2 p c) ?_ ?_ ?_ ?_
  · intro p hp
    rw [Finset.mem_filter] at hp ⊢
    exact ⟨Finset.mem_univ _, (resultIdx?_rows_iff wf idx p c t c).mpr ⟨hp.2, rfl⟩⟩
  · intro p₁ _ p₂ _ h
    exact congrFun h (0 : Fin 2)
  · intro j hj
    rw [Finset.mem_filter] at hj
    have hj2 := hj.2
    rw [eq_ix2 j] at hj2
    obtain ⟨h0, h1⟩ := (resultIdx?_rows_iff wf idx (j 0) (j 1) t c).mp hj2
    refine ⟨j 0, Finset.mem_filter.mpr ⟨Finset.mem_univ _, h0⟩, ?_⟩
    rw [← h1]
    exact (eq_ix2 j).symm
  · intro p _
    rfl

end

/-- Row `K * t + k` of an array of at least `N * K` rows, for `t < N` and `k < K`. -/
theorem row_lt {N K R : Nat} (hR : N * K ≤ R) (t : Fin N) (k : Fin K) : K * t.val + k.val < R := by
  have h1 : K * t.val + K ≤ K * N := by
    have := Nat.mul_le_mul_left K (Nat.succ_le_of_lt t.isLt)
    rw [Nat.mul_succ] at this
    exact this
  have h2 : K * N = N * K := Nat.mul_comm K N
  have := k.isLt
  omega

section
variable {N C R w : Nat} (wf : ScatterDims.WF ⟨2, ![N, C]⟩ ⟨2, ![R, 1]⟩ ⟨2, ![R, C]⟩ [1] [0] [0] 1)

/-- When row p's index is `p / K`, the rows landing on row t are `K * t + k` for `k < K`. -/
theorem scatterAdd_rows_div {K : Nat} (hK : 0 < K) (hR : N * K ≤ R) (x : (⟨2, ![N, C]⟩ : Shape).Idx → EReal)
    (idx : IVec ⟨2, ![R, 1]⟩ w) (upd : (⟨2, ![R, C]⟩ : Shape).Idx → EReal)
    (hidx : ∀ p : Fin R, (idx (ix2 p (0 : Fin 1))).toInt = ((p.val / K : ℕ) : ℤ)) (t : Fin N) (c : Fin C) :
    Ideal.hostScatterAdd (rowDims N C R wf) x idx upd (ix2 t c)
      = x (ix2 t c) + ∑ k : Fin K, upd (ix2 (⟨K * t.val + k.val, row_lt hR t k⟩ : Fin R) c) := by
  rw [scatterAdd_rows_apply]
  congr 1
  symm
  refine Finset.sum_bij (fun k _ => (⟨K * t.val + k.val, row_lt hR t k⟩ : Fin R)) ?_ ?_ ?_ ?_
  · intro k _
    rw [Finset.mem_filter]
    refine ⟨Finset.mem_univ _, ?_⟩
    rw [hidx]
    show (((K * t.val + k.val) / K : ℕ) : ℤ) = (t.val : ℤ)
    rw [Nat.mul_add_div hK, Nat.div_eq_of_lt k.isLt, Nat.add_zero]
  · intro k₁ _ k₂ _ h
    have := congrArg Fin.val h
    exact Fin.ext (by simp only at this; omega)
  · intro p hp
    rw [Finset.mem_filter, hidx] at hp
    have hp2 : p.val / K = t.val := by exact_mod_cast hp.2
    refine ⟨⟨p.val % K, Nat.mod_lt _ hK⟩, Finset.mem_univ _, Fin.ext ?_⟩
    show K * t.val + p.val % K = p.val
    rw [← hp2]
    exact Nat.div_add_mod p.val K
  · intro k _
    rfl

end

/-- The sum over the middle axis of an array `[R, C]` read row-major as `[N, K, C]`, at (t, c): the initial value plus the
    sum over `k < K` of the array at (K * t + k, c). -/
theorem reshape_midsum_apply {N K C R : Nat} (hR : N * K ≤ R) (U : (⟨2, ![R, C]⟩ : Shape).Idx → EReal)
    (hc : (⟨2, ![R, C]⟩ : Shape).ShapeCasts ⟨3, ![N, K, C]⟩)
    (hr : (⟨3, ![N, K, C]⟩ : Shape).ReducesTo [1] ⟨2, ![N, C]⟩) (init : EReal) (t : Fin N) (c : Fin C) :
    Ideal.hostReduceAdd hr (shapeCast ⟨3, ![N, K, C]⟩ U hc) init (ix2 t c)
      = init + ∑ k : Fin K, U (ix2 (⟨K * t.val + k.val, row_lt hR t k⟩ : Fin R) c) := by
  have h : (⟨3, ![N, K, C]⟩ : Shape).Reduces [1] ⟨2, ![N, C]⟩ := ⟨hr.1, Nat.zero_lt_two, hr.2⟩
  rw [Ideal.hostReduceAdd_single hr h]
  congr 1
  refine Finset.sum_congr rfl fun k _ => ?_
  refine shapeCast_apply U hc _ _ ?_
  rw [Shape.rowMajor_val_two, Shape.rowMajor_val_three]
  show (K * t.val + k.val) * C + c.val = (t.val * K + k.val) * C + c.val
  rw [Nat.mul_comm K]

section
variable {N C R w : Nat} (wf : ScatterDims.WF ⟨2, ![N, C]⟩ ⟨2, ![R, 1]⟩ ⟨2, ![R, C]⟩ [1] [0] [0] 1)

/-- Scattering the rows of `U : [R, C]` into a zero array `[N, C]` at row indices `p / K`, accumulating, is summing the
    middle axis of `U` read row-major as `[N, K, C]` from a zero initial value. -/
theorem combine_law {φ : FTy} {K : Nat} (hK : 0 < K) (hR : N * K ≤ R) {u : Shape} (hu : 0 < u.numel)
    (x : FVec Ideal ⟨2, ![N, C]⟩ φ) (init : u.Idx → Ideal φ) (hx : ∀ i, x i = (0 : EReal)) (hinit : ∀ i, init i = (0 : EReal))
    (idx : IVec ⟨2, ![R, 1]⟩ w) (hidx : ∀ p : Fin R, (idx (ix2 p (0 : Fin 1))).toInt = ((p.val / K : ℕ) : ℤ))
    (U : FVec Ideal ⟨2, ![R, C]⟩ φ)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf) x idx U
      = Host.reduceAdd (F := Ideal) (shapeCast ⟨3, ![N, K, C]⟩ U hc) init hr hu := by
  funext j
  obtain ⟨t, c, rfl⟩ : ∃ t c, j = ix2 t c := ⟨j 0, j 1, eq_ix2 j⟩
  show Ideal.hostScatterAdd (rowDims N C R wf) x idx U (ix2 t c)
    = Ideal.hostReduceAdd hr (shapeCast ⟨3, ![N, K, C]⟩ U hc) (init (Shape.Idx.first hu)) (ix2 t c)
  rw [scatterAdd_rows_div wf hK hR x idx U hidx, reshape_midsum_apply hR, hx, hinit]

/-- The same with the two zeros as a program writes them: the f32 constant `0.0` as a scalar, broadcast to `[N, C]` on the
    scatter's side and the initial value on the sum's side. -/
theorem combine_law_zero_f32 {K : Nat} (hK : 0 < K) (hR : N * K ≤ R)
    (hb : (⟨0, ![]⟩ : Shape).BroadcastsInDim ⟨2, ![N, C]⟩ (![] : Fin 0 → Fin 2))
    (hu : 0 < (⟨0, ![]⟩ : Shape).numel)
    (idx : IVec ⟨2, ![R, 1]⟩ w) (hidx : ∀ p : Fin R, (idx (ix2 p (0 : Fin 1))).toInt = ((p.val / K : ℕ) : ℤ))
    (U : FVec Ideal ⟨2, ![R, C]⟩ .f32)
    (hc : (⟨2, ![R, C]⟩ : Shape).ShapeCasts ⟨3, ![N, K, C]⟩)
    (hr : (⟨3, ![N, K, C]⟩ : Shape).ReducesTo [1] ⟨2, ![N, C]⟩) :
    Host.scatterAdd (F := Ideal) (rowDims N C R wf)
        (broadcastInDim ⟨2, ![N, C]⟩ ![] hb (constant (F := Ideal) ⟨0, ![]⟩ .f32 0x00000000#32)) idx U
      = Host.reduceAdd (F := Ideal) (shapeCast ⟨3, ![N, K, C]⟩ U hc) (constant (F := Ideal) ⟨0, ![]⟩ .f32 0x00000000#32) hr hu :=
  combine_law wf hK hR hu _ _ (fun _ => Ideal.ofBits_zero_f32) (fun _ => Ideal.ofBits_zero_f32) idx hidx U hc hr

end

end ScatterRows
-- ==== Proof.LibGridScatter.lean ====
/-
  An accumulating scatter of a grid of scalars into a matrix at pairs of indices, and what it leaves on a row that two
  operands of different heights share.

  What x.at[r, q].add(u) of a matrix x : [M, M'], two integer arrays r, q : [R, R'] and scalars u : [R, R'] lowers to is
  a scatter with an add body, no update window axes, inserted window axes [0, 1], scatter-dims-to-operand-dims [0, 1] and
  index vector axis 2 over the indices as [R, R', 2]: update (e, f) is added to the entry whose row is idx[e, f, 0] and
  whose column is idx[e, f, 1], both read as signed integers; an update whose row or column lies outside the matrix is
  dropped. So update (e, f) lands on entry (d, s) exactly when its index pair, read signed, is (d, s) — whatever the
  matrix's height. Hence two such scatters of the same updates at the same indices, into operands [M₁, M'] and [M₂, M']
  that agree at the entries (d, s) of a common row d, agree there: on the extended reals both are the operand's entry
  plus the sum of the updates whose index pair is (d, s). The extents are arbitrary.
-/
import proofs.«117365_j45011257262638_2_alg».proof.Proof.LibScatterRows

namespace GridScatter

open Idealize.ShloMosaic Idealize.ShloMosaic.ValueIdx

/-- The dimension numbers of a scatter of scalars [R, R'] into a matrix [M, M'] at index pairs [R, R', 2]. -/
abbrev gridDims (M M' R R' : Nat)
    (wf : ScatterDims.WF ⟨2, ![M, M']⟩ ⟨3, ![R, R', 2]⟩ ⟨2, ![R, R']⟩ [] [0, 1] [0, 1] 2) :
    ScatterDims ⟨2, ![M, M']⟩ ⟨3, ![R, R', 2]⟩ ⟨2, ![R, R']⟩ where
  updateWindowDims := []
  insertedWindowDims := [0, 1]
  scatterDimsToOperandDims := [0, 1]
  indexVectorDim := 2
  wf := wf

section
variable {M M' R R' w : Nat} (wf : ScatterDims.WF ⟨2, ![M, M']⟩ ⟨3, ![R, R', 2]⟩ ⟨2, ![R, R']⟩ [] [0, 1] [0, 1] 2)

/-- On the row axis update j starts at the first component of its index pair, read signed. -/
theorem start_zero (idx : IVec ⟨3, ![R, R', 2]⟩ w) (j : (⟨2, ![R, R']⟩ : Shape).Idx) :
    (gridDims M M' R R' wf).start j idx (0 : Fin 2) = (idx (ix3 (j 0) (j 1) (0 : Fin 2))).toInt := by
  unfold ScatterDims.start
  rw [dif_pos (show (0 : Fin 2) ∈ (gridDims M M' R R' wf).scatterDimsToOperandDims from (show (0 : Fin 2) ∈ ([0, 1] : List (Fin 2)) by decide))]
  have hsi : (gridDims M M' R R' wf).siIdx j ⟨List.idxOf (0 : Fin 2) (gridDims M M' R R' wf).scatterDimsToOperandDims,
      List.idxOf_lt_length_iff.2 (show (0 : Fin 2) ∈ ([0, 1] : List (Fin 2)) by decide)⟩ = ix3 (j 0) (j 1) (0 : Fin 2) := by
    funext b; refine Fin.ext ?_
    match b with
    | ⟨0, _⟩ => rfl
    | ⟨1, _⟩ => rfl
    | ⟨2, _⟩ => rfl
  rw [hsi]
  rfl

/-- On the column axis update j starts at the second component of its index pair, read signed. -/
theorem start_one (idx : IVec ⟨3, ![R, R', 2]⟩ w) (j : (⟨2, ![R, R']⟩ : Shape).Idx) :
    (gridDims M M' R R' wf).start j idx (1 : Fin 2) = (idx (ix3 (j 0) (j 1) (1 : Fin 2))).toInt := by
  unfold ScatterDims.start
  rw [dif_pos (show (1 : Fin 2) ∈ (gridDims M M' R R' wf).scatterDimsToOperandDims from (show (1 : Fin 2) ∈ ([0, 1] : List (Fin 2)) by decide))]
  have hsi : (gridDims M M' R R' wf).siIdx j ⟨List.idxOf (1 : Fin 2) (gridDims M M' R R' wf).scatterDimsToOperandDims,
      List.idxOf_lt_length_iff.2 (show (1 : Fin 2) ∈ ([0, 1] : List (Fin 2)) by decide)⟩ = ix3 (j 0) (j 1) (1 : Fin 2) := by
    funext b; refine Fin.ext ?_
    match b with
    | ⟨0, _⟩ => rfl
    | ⟨1, _⟩ => rfl
    | ⟨2, _⟩ => rfl
  rw [hsi]
  rfl

/-- Both operand axes are inserted, so every window coordinate is 0. -/
theorem window_eq (j : (⟨2, ![R, R']⟩ : Shape).Idx) (a : Fin 2) : (gridDims M M' R R' wf).window j a = 0 := by
  unfold ScatterDims.window
  refine dif_neg ?_
  match a with
  | ⟨0, _⟩ => exact (by decide : (0 : Fin 2) ∉ (List.finRange 2).filter (· ∉ [(0 : Fin 2), 1]))
  | ⟨1, _⟩ => exact (by decide : (1 : Fin 2) ∉ (List.finRange 2).filter (· ∉ [(0 : Fin 2), 1]))

/-- Update j lands on entry (d, s) exactly when its index pair, read signed, is (d, s). -/
theorem resultIdx?_grid_iff (idx : IVec ⟨3, ![R, R', 2]⟩ w) (j : (⟨2, ![R, R']⟩ : Shape).Idx) (d : Fin M) (s : Fin M') :
    (gridDims M M' R R' wf).resultIdx? j idx = some (ix2 d s)
      ↔ (idx (ix3 (j 0) (j 1) (0 : Fin 2))).toInt = (d.val : ℤ) ∧ (idx (ix3 (j 0) (j 1) (1 : Fin 2))).toInt = (s.val : ℤ) := by
  rw [ScatterRows.resultIdx?_eq_some_iff, Fin.forall_fin_two, start_zero, start_one, window_eq, window_eq]
  show (idx (ix3 (j 0) (j 1) (0 : Fin 2))).toInt + ((0 : ℕ) : ℤ) = (d.val : ℤ) ∧ (idx (ix3 (j 0) (j 1) (1 : Fin 2))).toInt + ((0 : ℕ) : ℤ) = (s.val : ℤ) ↔ _
  constructor
  · rintro ⟨h0, h1⟩
    exact ⟨by omega, by omega⟩
  · rintro ⟨h0, h1⟩
    exact ⟨by omega, by omega⟩

end

/-- Two accumulating scatters of the same updates at the same index pairs, into operands of heights M₁ and M₂ that hold
    the same value at entry (d, s) of a row d they share, leave the same value at that entry. -/
theorem scatterAdd_grid_common_row {M₁ M₂ M' R R' w : Nat}
    (wf₁ : ScatterDims.WF ⟨2, ![M₁, M']⟩ ⟨3, ![R, R', 2]⟩ ⟨2, ![R, R']⟩ [] [0, 1] [0, 1] 2)
    (wf₂ : ScatterDims.WF ⟨2, ![M₂, M']⟩ ⟨3, ![R, R', 2]⟩ ⟨2, ![R, R']⟩ [] [0, 1] [0, 1] 2)
    (x₁ : (⟨2, ![M₁, M']⟩ : Shape).Idx → EReal) (x₂ : (⟨2, ![M₂, M']⟩ : Shape).Idx → EReal)
    (idx : IVec ⟨3, ![R, R', 2]⟩ w) (upd : (⟨2, ![R, R']⟩ : Shape).Idx → EReal)
    (d₁ : Fin M₁) (d₂ : Fin M₂) (hd : d₁.val = d₂.val) (s : Fin M') (hx : x₁ (ix2 d₁ s) = x₂ (ix2 d₂ s)) :
    Ideal.hostScatterAdd (gridDims M₁ M' R R' wf₁) x₁ idx upd (ix2 d₁ s)
      = Ideal.hostScatterAdd (gridDims M₂ M' R R' wf₂) x₂ idx upd (ix2 d₂ s) := by
  unfold Ideal.hostScatterAdd
  rw [hx]
  congr 1
  refine Finset.sum_congr (Finset.filter_congr fun j _ => ?_) fun _ _ => rfl
  rw [resultIdx?_grid_iff, resultIdx?_grid_iff, hd]

end GridScatter
-- ==== Proof.LibPrefixSet.lean ====
/-
  A scatter whose body returns the update (x.at[…].set(v)), read at an element that exactly one update lands on, and
  the prefix form x.at[:n].set(v).

  The host's scatter with a returning body takes the updates one after another in row-major order; an update that lands
  on element i replaces what i holds, and an update landing elsewhere or outside the operand leaves i alone. So if every
  update landing on i carries the same value v and at least one lands there, i ends at v; if none lands there, i keeps the
  operand's value. For one window [n] written at the start index 0 into a vector [N] with n ≤ N — what x.at[:n].set(v)
  lowers to: update window axis 0, nothing inserted, scatter-dims-to-operand-dims [0], the single start index an array
  [1] — update g lands on element g, so the result at g < n is v g. The extents and the element type are arbitrary.
-/
import proofs.«117365_j45011257262638_2_alg».proof.Proof.LibScatterRows

namespace PrefixSet

open Idealize.ShloMosaic Idealize.ShloMosaic.ValueIdx

section fold
variable {s si u : Shape} (d : ScatterDims s si u) {w : Nat} {α : Type} (idx : IVec si w) (upd : u.Idx → α)

/-- One update taken: the element it lands on is replaced by the update. -/
def step (r : s.Idx → α) (n : Fin u.numel) : s.Idx → α :=
  match d.resultIdx? (u.rowMajor.symm n) idx with
  | some i => fun i' => if i' = i then (fun (_ b : α) => b) (r i) (upd (u.rowMajor.symm n)) else r i'
  | none => r

theorem step_lands (r : s.Idx → α) (n : Fin u.numel) (i : s.Idx) (h : d.resultIdx? (u.rowMajor.symm n) idx = some i) :
    step d idx upd r n i = upd (u.rowMajor.symm n) := by
  unfold step; rw [h]; exact if_pos rfl

theorem step_misses (r : s.Idx → α) (n : Fin u.numel) (i : s.Idx) (h : d.resultIdx? (u.rowMajor.symm n) idx ≠ some i) :
    step d idx upd r n i = r i := by
  unfold step
  cases h' : d.resultIdx? (u.rowMajor.symm n) idx with
  | none => rfl
  | some i0 =>
    have hne : i ≠ i0 := fun e => h (by rw [h', e])
    exact if_neg hne

/-- Taking a list of updates, each of which carries v whenever it lands on i: i ends at v as soon as it starts at v or
    some update of the list lands on it. -/
theorem foldl_step_eq (L : List (Fin u.numel)) (i : s.Idx) (v : α)
    (hall : ∀ n ∈ L, d.resultIdx? (u.rowMajor.symm n) idx = some i → upd (u.rowMajor.symm n) = v) :
    ∀ r : s.Idx → α, (r i = v ∨ ∃ n ∈ L, d.resultIdx? (u.rowMajor.symm n) idx = some i) →
      L.foldl (step d idx upd) r i = v := by
  induction L with
  | nil =>
    intro r h
    rcases h with h | ⟨n, hn, _⟩
    · exact h
    · exact absurd hn (List.not_mem_nil)
  | cons n L ih =>
    intro r h
    rw [List.foldl_cons]
    refine ih (fun n' hn' => hall n' (List.mem_cons_of_mem _ hn')) _ ?_
    by_cases hl : d.resultIdx? (u.rowMajor.symm n) idx = some i
    · exact Or.inl ((step_lands d idx upd r n i hl).trans (hall n (List.mem_cons_self) hl))
    · rw [step_misses d idx upd r n i hl]
      rcases h with h | ⟨n', hn', hl'⟩
      · exact Or.inl h
      · rcases List.mem_cons.mp hn' with rfl | hn''
        · exact absurd hl' hl
        · exact Or.inr ⟨n', hn'', hl'⟩

/-- The scatter with a returning body at an element i that update j lands on, every update landing on i carrying the
    value of j: the result there is that value. -/
theorem scatter_set_apply (x : s.Idx → α) (i : s.Idx) (j : u.Idx) (hj : d.resultIdx? j idx = some i)
    (hsame : ∀ j', d.resultIdx? j' idx = some i → upd j' = upd j) :
    Host.scatter d (fun _ b => b) x idx upd i = upd j := by
  show (List.finRange u.numel).foldl (step d idx upd) x i = upd j
  refine foldl_step_eq d idx upd _ i (upd j) (fun n _ h => hsame _ h) x (Or.inr ⟨u.rowMajor j, List.mem_finRange _, ?_⟩)
  rw [Equiv.symm_apply_apply]; exact hj

end fold

/-- The dimension numbers of one window [n] written into a vector [N] at one start index held in an array [1]. -/
abbrev prefixDims (N n : Nat) (wf : ScatterDims.WF ⟨1, ![N]⟩ ⟨1, ![1]⟩ ⟨1, ![n]⟩ [0] [] [0] 0) :
    ScatterDims ⟨1, ![N]⟩ ⟨1, ![1]⟩ ⟨1, ![n]⟩ where
  updateWindowDims := [0]
  insertedWindowDims := []
  scatterDimsToOperandDims := [0]
  indexVectorDim := 0
  wf := wf

section
variable {N n w : Nat} (wf : ScatterDims.WF ⟨1, ![N]⟩ ⟨1, ![1]⟩ ⟨1, ![n]⟩ [0] [] [0] 0)

/-- The window starts at the one start index, read signed. -/
theorem start_eq (idx : IVec ⟨1, ![1]⟩ w) (j : (⟨1, ![n]⟩ : Shape).Idx) :
    (prefixDims N n wf).start j idx (0 : Fin 1) = (idx (ix1 (0 : Fin 1))).toInt := by
  unfold ScatterDims.start
  rw [dif_pos (show (0 : Fin 1) ∈ (prefixDims N n wf).scatterDimsToOperandDims from List.mem_singleton.mpr rfl)]
  have hsi : (prefixDims N n wf).siIdx j ⟨List.idxOf (0 : Fin 1) (prefixDims N n wf).scatterDimsToOperandDims,
      List.idxOf_lt_length_iff.2 (List.mem_singleton.mpr rfl)⟩ = ix1 (0 : Fin 1) := by
    funext b; refine Fin.ext ?_
    match b with
    | ⟨0, _⟩ => rfl
  rw [hsi]

/-- The window coordinate of update g is g. -/
theorem window_eq (j : (⟨1, ![n]⟩ : Shape).Idx) : (prefixDims N n wf).window j (0 : Fin 1) = (j 0).val := by
  unfold ScatterDims.window
  rw [dif_pos (show (0 : Fin 1) ∈ (prefixDims N n wf).sKept from (by decide : (0 : Fin 1) ∈ (List.finRange 1).filter (· ∉ ([] : List (Fin 1)))))]
  rfl

/-- With the start index 0, update g lands on element t exactly when g = t. -/
theorem resultIdx?_prefix_iff (idx : IVec ⟨1, ![1]⟩ w) (h0 : (idx (ix1 (0 : Fin 1))).toInt = 0) (g : Fin n) (t : Fin N) :
    (prefixDims N n wf).resultIdx? (ix1 g) idx = some (ix1 t) ↔ g.val = t.val := by
  rw [ScatterRows.resultIdx?_eq_some_iff, Fin.forall_fin_one, start_eq, window_eq, h0]
  show (0 : ℤ) + (((ix1 g : (⟨1, ![n]⟩ : Shape).Idx) 0).val : ℤ) = (((ix1 t : (⟨1, ![N]⟩ : Shape).Idx) 0).val : ℤ) ↔ _
  show (0 : ℤ) + ((g.val : ℕ) : ℤ) = ((t.val : ℕ) : ℤ) ↔ _
  constructor
  · intro h; omega
  · intro h; omega

/-- x.at[:n].set(v) at an element g < n is v g. -/
theorem scatter_prefix_apply {α : Type} (x : (⟨1, ![N]⟩ : Shape).Idx → α) (idx : IVec ⟨1, ![1]⟩ w)
    (h0 : (idx (ix1 (0 : Fin 1))).toInt = 0) (upd : (⟨1, ![n]⟩ : Shape).Idx → α) (g : Fin n) (t : Fin N) (hgt : g.val = t.val) :
    Host.scatter (prefixDims N n wf) (fun _ b => b) x idx upd (ix1 t) = upd (ix1 g) := by
  refine scatter_set_apply (prefixDims N n wf) idx upd x (ix1 t) (ix1 g) ((resultIdx?_prefix_iff wf idx h0 g t).mpr hgt) ?_
  intro j' hj'
  rw [eq_ix1 j'] at hj' ⊢
  have := (resultIdx?_prefix_iff wf idx h0 (j' 0) t).mp hj'
  have e : j' 0 = g := Fin.ext (by omega)
  rw [e]
  rfl

end

end PrefixSet
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«117365_j45011257262638_2_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«117365_j45011257262638_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.Spec.lean ====
/-
  The decoder as functions of its arrays, and why its two arrangements agree.

  The hidden layer is h = leaky(repeat₈(x) · w1 + b1), an array [1024, 4096]. The second layer's weights w2 : [20000, 16, 8]
  are scattered into a dense matrix: edge (g, e) of gene g (e < 128) is added to row g, column 8·tf[g, e / 8] + e % 8 of a
  zero matrix, a negative row or column index wrapped once by the matrix's extent and an index still outside dropped. One
  arrangement scatters into 20000 rows and takes h · Wᵀ + b2. The other scatters into 20480 rows (480 rows of zeros
  below), pads b2 with zeros to 20480, takes the product tile by tile — the contraction axis in four stretches of 1024,
  summed in order — adds the padded bias, and keeps the first 20000 columns.

  They agree because (i) a row index is a gene's own number, never negative, so wrapping it by 20480 or by 20000 changes
  nothing and the two scatters use the SAME index pairs; (ii) an update lands on entry (g, c) exactly when its index pair is
  (g, c), whatever the operand's height, so the two dense matrices agree on the rows g < 20000 they share; (iii) the padded
  bias is b2 on those rows; (iv) a sum over 4096 positions is the sum of its four stretches of 1024 — sums on the
  extended reals are sums in a commutative monoid, so no entry need be finite.
-/
import Idealize.ShloMosaic.PureOps.Ideal
import Idealize.ShloMosaic.Lib.ValueIdx
import Idealize.ShloMosaic.Lib.ValueLayout
import Idealize.ShloMosaic.Lib.IdealHost
import proofs.«117365_j45011257262638_2_alg».proof.Proof.LibGridScatter
import proofs.«117365_j45011257262638_2_alg».proof.Proof.LibPrefixSet
import proofs.«117365_j45011257262638_2_alg».proof.Proof.LibHostLin
import proofs.«117365_j45011257262638_2_alg».proof.Proof.LibBlockSum
import Idealize.ShloMosaic.Lib.Pipeline.Value

noncomputable section

namespace Decoder

open Idealize.ShloMosaic Idealize.ShloMosaic.ValueIdx

/-! ## Shapes -/

abbrev S0 : Shape := ⟨0, ![]⟩
abbrev Sx : Shape := ⟨2, ![1024, 512]⟩
abbrev Sx8 : Shape := ⟨3, ![1024, 512, 8]⟩
abbrev Sv : Shape := ⟨1, ![4096]⟩
abbrev Sv1 : Shape := ⟨2, ![1, 4096]⟩
abbrev Sh : Shape := ⟨2, ![1024, 4096]⟩
abbrev Stf : Shape := ⟨2, ![20000, 16]⟩
abbrev Stf1 : Shape := ⟨3, ![20000, 16, 1]⟩
abbrev S8 : Shape := ⟨1, ![8]⟩
abbrev S118 : Shape := ⟨3, ![1, 1, 8]⟩
abbrev Sw2 : Shape := ⟨3, ![20000, 16, 8]⟩
abbrev Sg : Shape := ⟨2, ![20000, 128]⟩
abbrev Sg1 : Shape := ⟨3, ![20000, 128, 1]⟩
abbrev Sg2 : Shape := ⟨3, ![20000, 128, 2]⟩
abbrev Sn : Shape := ⟨1, ![20000]⟩
abbrev Sn1 : Shape := ⟨2, ![20000, 1]⟩
abbrev S1n : Shape := ⟨2, ![1, 20000]⟩
abbrev SWr : Shape := ⟨2, ![20000, 4096]⟩
abbrev SWrT : Shape := ⟨2, ![4096, 20000]⟩
abbrev SWk : Shape := ⟨2, ![20480, 4096]⟩
abbrev Sbk : Shape := ⟨1, ![20480]⟩
abbrev S1 : Shape := ⟨1, ![1]⟩
abbrev Sor : Shape := ⟨2, ![1024, 20000]⟩
abbrev Sok : Shape := ⟨2, ![1024, 20480]⟩

/-! ## The shape relations the operations take -/

theorem b_x_x8 : Sx.BroadcastsInDim Sx8 (![0, 1] : Fin 2 → Fin 3) := by decide
theorem c_x8_h : Sx8.ShapeCasts Sh := by decide
theorem b_v_v1 : Sv.BroadcastsInDim Sv1 (![1] : Fin 1 → Fin 2) := by decide
theorem b_v1_h : Sv1.BroadcastsInDim Sh (![0, 1] : Fin 2 → Fin 2) := by decide
theorem b_0_h : S0.BroadcastsInDim Sh (![] : Fin 0 → Fin 2) := by decide
theorem b_tf_tf1 : Stf.BroadcastsInDim Stf1 (![0, 1] : Fin 2 → Fin 3) := by decide
theorem b_0_tf1 : S0.BroadcastsInDim Stf1 (![] : Fin 0 → Fin 3) := by decide
theorem b_8_118 : S8.BroadcastsInDim S118 (![2] : Fin 1 → Fin 3) := by decide
theorem b_tf1_w2 : Stf1.BroadcastsInDim Sw2 (![0, 1, 2] : Fin 3 → Fin 3) := by decide
theorem b_118_w2 : S118.BroadcastsInDim Sw2 (![0, 1, 2] : Fin 3 → Fin 3) := by decide
theorem c_w2_g : Sw2.ShapeCasts Sg := by decide
theorem b_n_n1 : Sn.BroadcastsInDim Sn1 (![0] : Fin 1 → Fin 2) := by decide
theorem b_n1_g : Sn1.BroadcastsInDim Sg (![0, 1] : Fin 2 → Fin 2) := by decide
theorem b_0_g : S0.BroadcastsInDim Sg (![] : Fin 0 → Fin 2) := by decide
theorem b_g_g1 : Sg.BroadcastsInDim Sg1 (![0, 1] : Fin 2 → Fin 3) := by decide
theorem cat_g1_g2 : Shape.Concatenates [Sg1, Sg1] Sg2 2 := by decide
theorem b_0_Wr : S0.BroadcastsInDim SWr (![] : Fin 0 → Fin 2) := by decide
theorem b_0_Wk : S0.BroadcastsInDim SWk (![] : Fin 0 → Fin 2) := by decide
theorem b_0_bk : S0.BroadcastsInDim Sbk (![] : Fin 0 → Fin 1) := by decide
theorem b_0_1 : S0.BroadcastsInDim S1 (![] : Fin 0 → Fin 1) := by decide
theorem t_Wr : SWr.Transposes [1, 0] SWrT := by decide
theorem b_n_1n : Sn.BroadcastsInDim S1n (![1] : Fin 1 → Fin 2) := by decide
theorem b_1n_or : S1n.BroadcastsInDim Sor (![0, 1] : Fin 2 → Fin 2) := by decide
theorem sl_ok_or : Sok.Slices ![0, 0] Sor := by decide
theorem wf_r : ScatterDims.WF SWr Sg2 Sg [] [0, 1] [0, 1] 2 := by decide
theorem wf_k : ScatterDims.WF SWk Sg2 Sg [] [0, 1] [0, 1] 2 := by decide
theorem wf_b : ScatterDims.WF Sbk S1 Sn [0] [] [0] 0 := by decide

/-! ## The pieces both arrangements share -/

/-- x repeated eight times along the hidden axis, times w1, plus b1. -/
def preAct (x : FVec Ideal Sx .f32) (w1 b1 : FVec Ideal Sv .f32) : FVec Ideal Sh .f32 :=
  addf
    (mulf (fun i => shapeCast Sh (broadcastInDim Sx8 ![0, 1] b_x_x8 x) c_x8_h i)
      (broadcastInDim Sh ![0, 1] b_v1_h (broadcastInDim Sv1 ![1] b_v_v1 w1)))
    (broadcastInDim Sh ![0, 1] b_v1_h (broadcastInDim Sv1 ![1] b_v_v1 b1))

/-- The hidden layer: the leaky rectifier of the pre-activation, its slope the f32 word of 0.01. -/
def hidden (x : FVec Ideal Sx .f32) (w1 b1 : FVec Ideal Sv .f32) : FVec Ideal Sh .f32 :=
  select (cmpf .oge (preAct x w1 b1) (broadcastInDim Sh ![] b_0_h (constant S0 .f32 0x00000000#32))) (preAct x w1 b1)
    (mulf (broadcastInDim Sh ![] b_0_h (id (constant S0 .f32 0x3C23D70A#32))) (preAct x w1 b1))

/-- Edge (g, e)'s column before wrapping: 8 · tf[g, e / 8] + e % 8, in 32-bit arithmetic. -/
def colsRaw (tf : IVec Stf 32) : IVec Sg 32 :=
  fun i => shapeCast Sg
    (addi
      (broadcastInDim Sw2 ![0, 1, 2] b_tf1_w2
        (muli (broadcastInDim Stf1 ![0, 1] b_tf_tf1 tf) (broadcastInDim Stf1 ![] b_0_tf1 (constantI S0 32 8#32))))
      (broadcastInDim Sw2 ![0, 1, 2] b_118_w2 (broadcastInDim S118 ![2] b_8_118 (iotaInDim S8 32 0))))
    c_w2_g i

/-- An index wrapped once: n added when it is negative. -/
def wrap (n : BitVec 32) (r : IVec Sg 32) : IVec Sg 32 :=
  select (cmpi .slt r (broadcastInDim Sg ![] b_0_g (constantI S0 32 0#32)))
    (addi r (broadcastInDim Sg ![] b_0_g (constantI S0 32 n))) r

/-- Edge (g, e)'s row: g. -/
def rows : IVec Sg 32 :=
  broadcastInDim Sg ![0, 1] b_n1_g (broadcastInDim Sn1 ![0] b_n_n1 (iotaInDim Sn 32 0))

/-- The index pairs: (row, column) per edge. -/
def pairIdx (r c : IVec Sg 32) : IVec Sg2 32 :=
  concatenate Sg2 2 [⟨Sg1, broadcastInDim Sg1 ![0, 1] b_g_g1 r⟩, ⟨Sg1, broadcastInDim Sg1 ![0, 1] b_g_g1 c⟩] cat_g1_g2

/-- The weights, one row of 128 edges per gene. -/
def flatW (w2 : FVec Ideal Sw2 .f32) : FVec Ideal Sg .f32 := fun i => shapeCast Sg w2 c_w2_g i

/-- The scatter indices when rows are wrapped by n. -/
def idxArr (n : BitVec 32) (tf : IVec Stf 32) : IVec Sg2 32 := pairIdx (wrap n rows) (wrap 4096#32 (colsRaw tf))

/-! ## The two arrangements -/

/-- The dense weight [20000, 4096]. -/
def denseR (idx : IVec Sg2 32) (u : FVec Ideal Sg .f32) : FVec Ideal SWr .f32 :=
  Host.scatterAdd (GridScatter.gridDims 20000 4096 20000 128 wf_r)
    (broadcastInDim SWr ![] b_0_Wr (constant S0 .f32 0x00000000#32)) idx u

/-- The dense weight [20480, 4096]. -/
def denseK (idx : IVec Sg2 32) (u : FVec Ideal Sg .f32) : FVec Ideal SWk .f32 :=
  Host.scatterAdd (GridScatter.gridDims 20480 4096 20000 128 wf_k)
    (broadcastInDim SWk ![] b_0_Wk (constant S0 .f32 0x00000000#32)) idx u

/-- b2 written over the first 20000 entries of a zero vector [20480]. -/
def padBias (b2 : FVec Ideal Sn .f32) : FVec Ideal Sbk .f32 :=
  Host.scatter (PrefixSet.prefixDims 20480 20000 wf_b) (fun _ b => b)
    (broadcastInDim Sbk ![] b_0_bk (constant S0 .f32 0x00000000#32))
    (broadcastInDim S1 ![] b_0_1 (constantI S0 32 0#32)) b2

/-- The reference's result: h · Wᵀ + b2. -/
def refOut (h : FVec Ideal Sh .f32) (W : FVec Ideal SWr .f32) (b2 : FVec Ideal Sn .f32) : FVec Ideal Sor .f32 :=
  addf (Host.dotGeneral (DotDims.plain 1024 4096 20000) none h (transpose SWrT [1, 0] W t_Wr))
    (broadcastInDim Sor ![0, 1] b_1n_or (broadcastInDim S1n ![1] b_n_1n b2))

/-- Position r of stretch k of the contraction axis. -/
def col (k : Fin 4) (r : Fin 1024) : Fin 4096 := ⟨1024 * k.val + r.val, by have := k.isLt; have := r.isLt; omega⟩

/-- The array the tiled product leaves: per entry the four stretches' sums added up, plus the padded bias. -/
def tiled (h : FVec Ideal Sh .f32) (W : FVec Ideal SWk .f32) (bias : FVec Ideal Sbk .f32) : FVec Ideal Sok .f32 :=
  fun i => (∑ k : Fin 4, ∑ r : Fin 1024, h (ix2 (i 0) (col k r)) * W (ix2 (i 1) (col k r))) + bias (ix1 (i 1))

/-- The kernel program's result: the first 20000 columns of the tiled array. -/
def kerOut (h : FVec Ideal Sh .f32) (W : FVec Ideal SWk .f32) (bias : FVec Ideal Sbk .f32) : FVec Ideal Sor .f32 :=
  extractStridedSlice Sor ![0, 0] (tiled h W bias) sl_ok_or

/-! ## Why they agree -/

/-- A 32-bit word holding a number below 2³¹ reads, signed, as that number. -/
theorem toInt_ofNat_small (n : ℕ) (h : n < 2 ^ 31) : (BitVec.ofNat 32 n).toInt = (n : ℤ) := by
  rw [BitVec.toInt_eq_toNat_of_lt]
  · simp only [BitVec.toNat_ofNat]; omega
  · simp only [BitVec.toNat_ofNat]; omega

/-- A gene's number is not negative, so wrapping the rows changes nothing. -/
theorem wrap_rows (n : BitVec 32) : wrap n rows = rows := by
  funext i
  obtain ⟨g, e, rfl⟩ : ∃ (g : Fin 20000) (e : Fin 128), i = ix2 g e := ⟨i 0, i 1, eq_ix2 i⟩
  unfold wrap
  rw [select_apply]
  have hr : rows (ix2 g e) = BitVec.ofNat 32 g.val := by
    unfold rows
    rw [broadcastInDim_apply ![0, 1] b_n1_g _ (ix2 g e) (ix2 g (0 : Fin 1)) (fun a => by
      match a with
      | ⟨0, _⟩ => rfl
      | ⟨1, _⟩ => rfl)]
    rw [broadcastInDim_apply ![0] b_n_n1 _ (ix2 g (0 : Fin 1)) (ix1 g) (fun a => by
      match a with
      | ⟨0, _⟩ => rfl)]
    rw [iotaInDim_apply]
  have hc : cmpi .slt rows (broadcastInDim Sg ![] b_0_g (constantI S0 32 0#32)) (ix2 g e) = 0#1 := by
    show IntOp.cmpi .slt (rows (ix2 g e)) (broadcastInDim Sg ![] b_0_g (constantI S0 32 0#32) (ix2 g e)) = 0#1
    rw [hr, HostLin.scalar_bcast_apply, constantI_apply]
    have hg : g.val < 20000 := g.isLt
    have hlt : (BitVec.ofNat 32 g.val).slt 0#32 = false := by
      unfold BitVec.slt
      rw [toInt_ofNat_small g.val (by omega)]
      simp
    show BitVec.ofBool ((BitVec.ofNat 32 g.val).slt 0#32) = 0#1
    rw [hlt]; rfl
  rw [hc, select_zero]

/-- So the two scatters use the same index pairs. -/
theorem idxArr_eq (n n' : BitVec 32) (tf : IVec Stf 32) : idxArr n tf = idxArr n' tf := by
  unfold idxArr
  rw [wrap_rows, wrap_rows]

/-- The two dense matrices agree on the rows they share. -/
theorem dense_common (idx : IVec Sg2 32) (u : FVec Ideal Sg .f32) (g : Fin 20000) (g' : Fin 20480) (hg : g'.val = g.val)
    (c : Fin 4096) : denseK idx u (ix2 g' c) = denseR idx u (ix2 g c) := by
  unfold denseK denseR
  show Ideal.hostScatterAdd (GridScatter.gridDims 20480 4096 20000 128 wf_k) _ idx u (ix2 g' c)
    = Ideal.hostScatterAdd (GridScatter.gridDims 20000 4096 20000 128 wf_r) _ idx u (ix2 g c)
  exact GridScatter.scatterAdd_grid_common_row wf_k wf_r _ _ idx u g' g hg c
    (by rw [HostLin.scalar_bcast_apply, HostLin.scalar_bcast_apply])

/-- The padded bias is b2 on the first 20000 entries. -/
theorem padBias_apply (b2 : FVec Ideal Sn .f32) (g : Fin 20000) (g' : Fin 20480) (hg : g'.val = g.val) :
    padBias b2 (ix1 g') = b2 (ix1 g) := by
  unfold padBias
  refine PrefixSet.scatter_prefix_apply wf_b _ _ ?_ b2 g g' hg.symm
  rw [HostLin.scalar_bcast_apply, constantI_apply]
  rfl

/-- The two arrangements give the same array. -/
theorem out_eq (h : FVec Ideal Sh .f32) (idx : IVec Sg2 32) (u : FVec Ideal Sg .f32) (b2 : FVec Ideal Sn .f32) :
    kerOut h (denseK idx u) (padBias b2) = refOut h (denseR idx u) b2 := by
  funext i
  obtain ⟨p, q, rfl⟩ : ∃ (p : Fin 1024) (q : Fin 20000), i = ix2 p q := ⟨i 0, i 1, eq_ix2 i⟩
  have hq : q.val < 20480 := by have := q.isLt; omega
  unfold kerOut refOut
  rw [slice2_axis1_apply 0 (tiled h (denseK idx u) (padBias b2)) sl_ok_or p q ⟨q.val, hq⟩ (Nat.zero_add _).symm]
  rw [HostLin.affine_apply (DotDims.plain 1024 4096 20000) rfl b_n_1n b_1n_or h _ b2 p q]
  show (∑ k : Fin 4, ∑ r : Fin 1024, h (ix2 p (col k r)) * denseK idx u (ix2 ⟨q.val, hq⟩ (col k r)))
      + padBias b2 (ix1 ⟨q.val, hq⟩) = _
  rw [padBias_apply b2 q ⟨q.val, hq⟩ rfl]
  congr 1
  rw [BlockSum.sum_eq_sum_blocks 4 1024 4096 rfl
    (fun k => h (ix2 p k) * transpose SWrT [1, 0] (denseR idx u) t_Wr (ix2 k q))]
  refine Finset.sum_congr rfl fun k _ => Finset.sum_congr rfl fun r _ => ?_
  rw [transpose_ix2_apply, dense_common idx u q ⟨q.val, hq⟩ rfl]
  rfl

end Decoder

end
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.KValue.lean ====
/-
  What the region leaves in its result array. The grid is 40 rows of 4 steps: step 4j + k multiplies the k-th stretch of
  1024 columns of h by the same stretch of rows 512j … 512j + 511 of W. The accumulator is reset at k = 0 and carried
  through the row, so after step 4j + k it holds, at (p, q), the sum over the stretches i ≤ k of the stretch's sum of
  h(p, ·) · W(512j + q, ·); at k = 3 the tile written back is that with all four stretches plus bias(512j + q). The tiles
  written back at the steps 4j + 3 cover the array [1024, 20480], so it ends at the tiled form of h · Wᵀ + bias.
-/
import proofs.«117365_j45011257262638_2_alg».proof.Proof.KPieces
import proofs.«117365_j45011257262638_2_alg».proof.Proof.KTile
import proofs.«117365_j45011257262638_2_alg».proof.Proof.Spec
import proofs.«117365_j45011257262638_2_alg».proof.Proof.LibAccumBlocks

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The printed index maps over the grid: step t is in row t / 4 at stretch t % 4. -/
theorem idx_facts : ∀ t : Fin cfg0.N, win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 1) = t.val / 4
    ∧ win0_3.index t (0 : Fin 2) = 0 ∧ win0_3.index t (1 : Fin 2) = t.val / 4 :=
  (by decide +kernel : ∀ t : Fin grid0.N, _)

/-- Stretch n % 4 of the contraction axis. -/
def stretch (n : ℕ) : Fin 4 := ⟨n % 4, Nat.mod_lt _ (by decide)⟩

/-- Row 512 · (n / 4) + q of the padded weight: the q-th row of the tile of step n. -/
def wrow (n : ℕ) (q : Fin 512) : Fin 20480 := ⟨512 * (n / 4 % 40) + q.val, by have := q.isLt; have := Nat.mod_lt (n / 4) (by decide : 0 < 40); omega⟩

/-- The arrays the region finds: the hidden layer, the padded dense weight, the padded bias. -/
abbrev arrH (c : Dev nD) : FVec Ideal S1024x4096 .f32 := V m c main_v8
abbrev arrW (c : Dev nD) : FVec Ideal S20480x4096 .f32 := V m c main_v36
abbrev arrB (c : Dev nD) : FVec Ideal S20480 .f32 := V m c main_v39
/-- The tiles of step t. -/
abbrev tileH (c : Dev nD) (t : Fin cfg0.N) : Vec Ideal S1024x1024 .f32 := iblk m c 0 t
abbrev tileW (c : Dev nD) (t : Fin cfg0.N) : Vec Ideal S512x1024 .f32 := iblk m c 1 t
abbrev tileB (c : Dev nD) (t : Fin cfg0.N) : Vec Ideal S512 .f32 := iblk m c 2 t

/-- The h-tile of step t at (p, r): h at (p, r-th position of the step's stretch). -/
theorem iblk0_apply (c : Dev nD) (t : Fin cfg0.N) (p r : Fin 1024) :
    tileH m c t (ix2 p r) = arrH m c (ix2 p (Decoder.col (stretch t.val) r)) := by
  obtain ⟨e0, e1, -⟩ := idx_facts t
  unfold tileH iblk
  rw [View.read_apply]
  show V m c main_v8 _ = V m c main_v8 _
  refine congrArg (V m c main_v8) (funext fun a => Fin.ext ?_)
  match a with
  | ⟨0, _⟩ => show win0_0.index t (0 : Fin 2) * 1024 + 1 * p.val = p.val; rw [e0]; omega
  | ⟨1, _⟩ => show win0_0.index t (1 : Fin 2) * 1024 + 1 * r.val = 1024 * (t.val % 4) + r.val; rw [e1]; omega

/-- The W-tile of step t at (q, r): W at (the step's q-th row, r-th position of the step's stretch). -/
theorem iblk1_apply (c : Dev nD) (t : Fin cfg0.N) (q : Fin 512) (r : Fin 1024) :
    tileW m c t (ix2 q r) = arrW m c (ix2 (wrow t.val q) (Decoder.col (stretch t.val) r)) := by
  obtain ⟨-, -, e2, e3, -⟩ := idx_facts t
  have hN : t.val < 160 := lt_of_lt_of_eq t.isLt (show cfg0.N = 160 from N_0)
  unfold tileW iblk
  rw [View.read_apply]
  show V m c main_v36 _ = V m c main_v36 _
  refine congrArg (V m c main_v36) (funext fun a => Fin.ext ?_)
  match a with
  | ⟨0, _⟩ => show win0_1.index t (0 : Fin 2) * 512 + 1 * q.val = 512 * (t.val / 4 % 40) + q.val; rw [e2]; omega
  | ⟨1, _⟩ => show win0_1.index t (1 : Fin 2) * 1024 + 1 * r.val = 1024 * (t.val % 4) + r.val; rw [e3]; omega

/-- The bias tile of step t at q: the bias at the step's q-th row. -/
theorem iblk2_apply (c : Dev nD) (t : Fin cfg0.N) (q : Fin 512) :
    tileB m c t (ix1 q) = arrB m c (ix1 (wrow t.val q)) := by
  obtain ⟨-, -, -, -, e4, -⟩ := idx_facts t
  have hN : t.val < 160 := lt_of_lt_of_eq t.isLt (show cfg0.N = 160 from N_0)
  unfold tileB iblk
  rw [View.read_apply]
  show V m c main_v39 _ = V m c main_v39 _
  refine congrArg (V m c main_v39) (funext fun a => Fin.ext ?_)
  match a with
  | ⟨0, _⟩ => show win0_2.index t (0 : Fin 1) * 512 + 1 * q.val = 512 * (t.val / 4 % 40) + q.val; rw [e4]; omega

/-- What step n contributes to entry (p, q) of its row's tile. -/
def term (c : Dev nD) (p : Fin 1024) (q : Fin 512) (n : ℕ) : EReal :=
  ∑ r : Fin 1024, arrH m c (ix2 p (Decoder.col (stretch n) r)) * arrW m c (ix2 (wrow n q) (Decoder.col (stretch n) r))

/-- The product of the two tiles of step t at (p, q) is the step's contribution. -/
theorem tiles_eq_term (c : Dev nD) (t : Fin cfg0.N) (p : Fin 1024) (q : Fin 512) :
    (∑ r : Fin 1024, tileH m c t (ix2 p r) * tileW m c t (ix2 q r))
      = term m c p q t.val :=
  Finset.sum_congr rfl fun r _ => by rw [iblk0_apply, iblk1_apply]

/-- A reset step leaves its own contribution. -/
theorem acc_reset (c : Dev nD) (p : Fin 1024) (q : Fin 512) (n : ℕ) (h : n < cfg0.N) (h0 : n % 4 = 0) :
    (outsAt0 m c n h).2 (ix2 p q) = term m c p q n := by
  have h1 : ¬n % 4 = 3 := by omega
  have e : outsAt0 m c n h = _ := outsAt0_A m c ⟨n, h⟩ h0 h1
  rw [e]
  dsimp only
  rw [Pieces.acc_A, Tile.pay2_apply, Tile.pay1_apply, zero_add]
  exact tiles_eq_term m c ⟨n, h⟩ p q

/-- Any other step adds its contribution to what the step before left. -/
theorem acc_step (c : Dev nD) (p : Fin 1024) (q : Fin 512) (n : ℕ) (h : n + 1 < cfg0.N) (h0 : (n + 1) % 4 ≠ 0) :
    (outsAt0 m c (n + 1) h).2 (ix2 p q) = (outsAt0 m c n (Nat.lt_of_succ_lt h)).2 (ix2 p q) + term m c p q (n + 1) := by
  by_cases h1 : (n + 1) % 4 = 3
  · have e : outsAt0 m c (n + 1) h = _ := outsAt0_C m c ⟨n + 1, h⟩ h0 h1
    rw [e]
    dsimp only
    rw [Pieces.acc_C, Tile.pay2_apply]
    exact congrArg ((outsAt0 m c n (Nat.lt_of_succ_lt h)).2 (ix2 p q) + ·) (tiles_eq_term m c ⟨n + 1, h⟩ p q)
  · have e : outsAt0 m c (n + 1) h = _ := outsAt0_B m c ⟨n + 1, h⟩ h0 h1
    rw [e]
    dsimp only
    rw [Pieces.acc_B, Tile.pay2_apply]
    exact congrArg ((outsAt0 m c n (Nat.lt_of_succ_lt h)).2 (ix2 p q) + ·) (tiles_eq_term m c ⟨n + 1, h⟩ p q)

/-- After step 4j + k the accumulator holds the contributions of the steps 4j … 4j + k. -/
theorem acc_eq (c : Dev nD) (p : Fin 1024) (q : Fin 512) (j k : ℕ) (hk : k < 4) (n : ℕ) (h : n < cfg0.N) (hn : n = 4 * j + k) :
    (outsAt0 m c n h).2 (ix2 p q) = ∑ i : Fin (k + 1), term m c p q (4 * j + i.val) :=
  AccumBlocks.total_eq_sum_fin 4 cfg0.N (fun n h => (outsAt0 m c n h).2 (ix2 p q)) (term m c p q)
    (fun n h h0 => acc_reset m c p q n h h0) (fun n h h0 => acc_step m c p q n h h0) j k hk n h hn

end Cert.KernelIdeal.KValue

end
-- ==== Proof.KFinal.lean ====
/-
  The region's result array after the run, and the program's result after the slice that follows the region.
-/
import proofs.«117365_j45011257262638_2_alg».proof.Proof.KValue

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The array [1024, 20480] the region's write-backs assemble, of the arrays the region finds. -/
abbrev G (c : Dev nD) : Buf (Elt Ideal) ((c : Thread nD τ).loc main_v40) :=
  Decoder.tiled (arrH m c) (arrW m c) (arrB m c)

/-- The last step of row j contributes, with the three before it, the four stretches' sums. -/
theorem four_terms (c : Dev nD) (p : Fin 1024) (q : Fin 512) (j : ℕ) :
    (∑ i : Fin 4, term m c p q (4 * j + i.val))
      = ∑ k : Fin 4, ∑ r : Fin 1024, arrH m c (ix2 p (Decoder.col k r)) * arrW m c (ix2 (wrow (4 * j + 3) q) (Decoder.col k r)) := by
  refine Finset.sum_congr rfl fun i _ => ?_
  unfold term
  have hs : stretch (4 * j + i.val) = i := Fin.ext (by show (4 * j + i.val) % 4 = i.val; have := i.isLt; omega)
  have hw : wrow (4 * j + i.val) q = wrow (4 * j + 3) q := Fin.ext (by
    show 512 * ((4 * j + i.val) / 4 % 40) + q.val = 512 * ((4 * j + 3) / 4 % 40) + q.val
    have := i.isLt; omega)
  rw [hs, hw]

/-- Three consecutive values of a sequence and the fourth are the four. -/
theorem three_and_one (f : ℕ → EReal) (a : ℕ) :
    (∑ i : Fin (2 + 1), f (a + i.val)) + f (a + 3) = ∑ i : Fin 4, f (a + i.val) := by
  rw [Fin.sum_univ_castSucc (n := 3)]
  rfl

set_option maxHeartbeats 1600000 in
/-- The tile a row's last step leaves for writing back, at (p, q): the four stretches' sums plus the bias, at the step's
    q-th row of the weight. -/
theorem out_tile (c : Dev nD) (t : Fin cfg0.N) (h3 : t.val % 4 = 3) (p : Fin 1024) (q : Fin 512) :
    (outsAt0 m c t.val t.isLt).1 (ix2 p q)
      = (∑ k : Fin 4, ∑ r : Fin 1024, arrH m c (ix2 p (Decoder.col k r)) * arrW m c (ix2 (wrow t.val q) (Decoder.col k r)))
        + arrB m c (ix1 (wrow t.val q)) := by
  have h0 : ¬t.val % 4 = 0 := by omega
  have e : outsAt0 m c t.val t.isLt = _ := outsAt0_C m c t h0 h3
  rw [e]
  dsimp only
  rw [Pieces.out_C, Tile.pay3_apply, Tile.pay2_apply]
  have hacc := acc_eq m c p q (t.val / 4) 2 (by decide) (t.val - 1) (Nat.lt_of_le_of_lt (Nat.sub_le _ _) t.isLt) (by omega)
  have ht : t.val = 4 * (t.val / 4) + 3 := by omega
  have hsum : (∑ i : Fin (2 + 1), term m c p q (4 * (t.val / 4) + i.val)) + term m c p q t.val
      = ∑ i : Fin 4, term m c p q (4 * (t.val / 4) + i.val) := by
    have h := three_and_one (term m c p q) (4 * (t.val / 4))
    rw [← ht] at h
    exact h
  have hw : wrow (4 * (t.val / 4) + 3) q = wrow t.val q := by rw [← ht]
  refine (congrArg₂ (· + ·) (congrArg₂ (· + ·) hacc (tiles_eq_term m c t p q)) (iblk2_apply m c t q)).trans ?_
  rw [hsum, four_terms m c p q (t.val / 4), hw]

set_option maxHeartbeats 1600000 in
/-- What the write-back of a row's last step writes is that row's tile of the array. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  have hN : t.val < 160 := lt_of_lt_of_eq t.isLt (show cfg0.N = 160 from N_0)
  obtain ⟨-, -, -, -, -, e5, e6⟩ := idx_facts t
  show (cfg0.win 3).cut (grid0.coords t) ((dats m 0 c).after 3 t) = _
  rw [after0_3]
  funext y
  obtain ⟨p, q, rfl⟩ : ∃ (p : Fin 1024) (q : Fin 512), y = ix2 p q := ⟨y 0, y 1, eq_ix2 y⟩
  rw [View.read_apply]
  have hemb : ((cfg0.win 3).blk t).view.emb (ix2 p q) = ix2 p (wrow t.val q) := by
    funext a; apply Fin.ext
    match a with
    | ⟨0, _⟩ => show win0_3.index t (0 : Fin 2) * 1024 + 1 * p.val = p.val; rw [e5]; omega
    | ⟨1, _⟩ => show win0_3.index t (1 : Fin 2) * 512 + 1 * q.val = 512 * (t.val / 4 % 40) + q.val; rw [e6]; omega
  rw [hemb]
  show (outsAt0 m c t.val t.isLt).1 (ix2 p q) = G m c (ix2 p (wrow t.val q))
  rw [out_tile m c t h3 p q]
  rfl

/-- An index of the array is in the tile of step t iff each coordinate is in the tile's range on its axis. -/
theorem mem_blk (t : Fin cfg0.N) (i : S1024x20480.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v40).slice (win0_3.rect t)).set ↔ _
  rw [View.set_slice_whole, Rect.mem_set_unit]
  exact Iff.rfl

/-- Every index of the array is in the tile some row's last step writes back. -/
theorem cover (i : S1024x20480.Idx) : ∃ t : Fin cfg0.N, (cfg0.win 3).flush t = true ∧ i ∈ ((cfg0.win 3).blk t).view.set := by
  have hi0 : (i 0).val < 1024 := (i 0).isLt
  have hi1 : (i 1).val < 20480 := (i 1).isLt
  have hlt : 4 * ((i 1).val / 512) + 3 < cfg0.N := by rw [show cfg0.N = 160 from N_0]; omega
  refine ⟨⟨4 * ((i 1).val / 512) + 3, hlt⟩, (flush0_3 _).mpr (by show (4 * ((i 1).val / 512) + 3) % 4 = 3; omega), ?_⟩
  obtain ⟨-, -, -, -, -, e5, e6⟩ := idx_facts ⟨4 * ((i 1).val / 512) + 3, hlt⟩
  rw [mem_blk]
  intro a
  match a with
  | ⟨0, _⟩ =>
    show win0_3.index _ (0 : Fin 2) * 1024 ≤ (i 0).val ∧ (i 0).val < win0_3.index _ (0 : Fin 2) * 1024 + 1024
    rw [e5]; omega
  | ⟨1, _⟩ =>
    show win0_3.index _ (1 : Fin 2) * 512 ≤ (i 1).val ∧ (i 1).val < win0_3.index _ (1 : Fin 2) * 512 + 512
    rw [e6]
    show (4 * ((i 1).val / 512) + 3) / 4 * 512 ≤ (i 1).val ∧ (i 1).val < (4 * ((i 1).val / 512) + 3) / 4 * 512 + 512
    omega

/-- The region's result array ends at the tiled form. -/
theorem final (c : Dev nD) : (dats m 0 c).arrAt 3 cfg0.N = G m c :=
  (dats m 0 c).arrAt_eq_of_cover 3 (G m c) (fun t hf => flushed_eq m c t hf) cover

end Cert.KernelIdeal.KValue

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.KHost.lean ====
/-
  What the region finds in the three arrays it reads, as functions of the program's argument arrays: the hidden layer, the
  dense weight with 20480 rows (row indices wrapped by 20480), and the bias padded with zeros.
-/
import proofs.«117365_j45011257262638_2_alg».proof.Proof.Gen.KernelIdeal.Frame
import proofs.«117365_j45011257262638_2_alg».proof.Proof.Spec
import proofs.«117365_j45011257262638_2_alg».proof.Proof.LibHostRead

noncomputable section

namespace Cert.KernelIdeal.KHost

open Idealize.ShloMosaic Idealize.ShloMosaic.TcCoe Idealize.SL.Sem
open Idealize.ShloMosaic.StableHlo Cert.HostRead
open Cert.KernelIdeal Cert.KernelIdeal.Gen

variable (m : (ℓ : Loc nD τ sig) → Buf (Elt Ideal) ℓ)

set_option maxHeartbeats 16000000 in
/-- The hidden layer, as the region finds it. -/
theorem V_hidden (c : Dev nD) : V m c main_v8
    = Decoder.hidden (m ((c : Thread nD τ).loc main_arg0)) (m ((c : Thread nD τ).loc main_arg1)) (m ((c : Thread nD τ).loc main_arg2)) := by
  dsimp only [Gen.V, Gen.V0]
  simp only [Gen.hostOps0, Gen.hostOps0_1, Gen.hostOps0_2, List.flatten_cons, List.flatten_nil, List.append_nil, List.cons_append,
    List.nil_append]
  read_results
  rfl

set_option maxHeartbeats 16000000 in
/-- The dense weight, as the region finds it. -/
theorem V_dense (c : Dev nD) : V m c main_v36
    = Decoder.denseK (Decoder.idxArr 20480#32 (m ((c : Thread nD τ).loc main_arg5))) (Decoder.flatW (m ((c : Thread nD τ).loc main_arg3))) := by
  dsimp only [Gen.V, Gen.V0]
  simp only [Gen.hostOps0, Gen.hostOps0_1, Gen.hostOps0_2, List.flatten_cons, List.flatten_nil, List.append_nil, List.cons_append,
    List.nil_append]
  read_results
  rfl

set_option maxHeartbeats 16000000 in
/-- The padded bias, as the region finds it. -/
theorem V_bias (c : Dev nD) : V m c main_v39 = Decoder.padBias (m ((c : Thread nD τ).loc main_arg4)) := by
  dsimp only [Gen.V, Gen.V0]
  simp only [Gen.hostOps0, Gen.hostOps0_1, Gen.hostOps0_2, List.flatten_cons, List.flatten_nil, List.append_nil, List.cons_append,
    List.nil_append]
  read_results
  rfl

end Cert.KernelIdeal.KHost

end
-- ==== Proof.KRun.lean ====
/-
  The kernel program's run, read: after the region the slice keeps the first 20000 columns of the array the region
  assembled, so the result is the tiled form's first 20000 columns, of the hidden layer, the padded dense weight and the
  padded bias as functions of the argument arrays; the argument arrays end as launched.
-/
import proofs.«117365_j45011257262638_2_alg».proof.Proof.KFinal
import proofs.«117365_j45011257262638_2_alg».proof.Proof.KHost

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The program's result as one function of its argument arrays. -/
def out (x : FVec Ideal S1024x512 .f32) (w1 b1 : FVec Ideal S4096 .f32) (w2 : FVec Ideal S20000x16x8 .f32)
    (b2 : FVec Ideal S20000 .f32) (tf : IVec S20000x16 32) : FVec Ideal S1024x20000 .f32 :=
  Decoder.kerOut (Decoder.hidden x w1 b1) (Decoder.denseK (Decoder.idxArr 20480#32 tf) (Decoder.flatW w2)) (Decoder.padBias b2)

/-- The array the region assembles, of the argument arrays. -/
theorem G_eq (c : Dev nD) : G m c
    = Decoder.tiled (Decoder.hidden (m ((c : Thread nD τ).loc main_arg0)) (m ((c : Thread nD τ).loc main_arg1)) (m ((c : Thread nD τ).loc main_arg2)))
        (Decoder.denseK (Decoder.idxArr 20480#32 (m ((c : Thread nD τ).loc main_arg5))) (Decoder.flatW (m ((c : Thread nD τ).loc main_arg3))))
        (Decoder.padBias (m ((c : Thread nD τ).loc main_arg4))) := by
  show Decoder.tiled (V m c main_v8) (V m c main_v36) (V m c main_v39) = _
  rw [KHost.V_hidden, KHost.V_dense, KHost.V_bias]

/-- The slice after the region, of the array the region left. -/
theorem tail_eq (c : Dev nD) :
    Pipeline.afterTail₀ cfgs (dats m) 0 (V0 m) [hostOps1] c main_v41
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : Pipeline.withArrays spec0 c (V0 m c) (fun w => (dats m 0 c).arrAt w cfg0.N) (Proc.devRef .tc main_v40) = G m c :=
    (Pipeline.withArrays_arr spec0 launch0.win.arr_inj c _ _ 3).trans (final m c)
  unfold Pipeline.afterTail₀
  show StableHlo.after hostOps1 _ (Proc.devRef .tc main_v41) = _
  after_results
  refine (congrArg (fun A => extractStridedSlice S1024x20000 ![0, 0] A slices_S1024x20480_S1024x20000_0_0) e).trans ?_
  rw [G_eq]
  rfl

/-- Every weakly fair execution of the kernel program terminates with its result at `out` of the argument arrays as
    launched, and the argument arrays as launched. -/
theorem run : θ_run defs (onTc (τ := τ) (main (F := Ideal))) ⟨m, fun _ => 0, ρ⟩ fun r => ∀ c : Dev nD,
      r.2.mem ((c.tc : Thread nD τ).loc main_v41)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefRun.lean ====
/-
  The reference program's host operations as three consecutive stretches — the hidden layer (expansion of the features,
  scale, shift, leaky rectifier), the scatter indices with the zero operand and the flattened weights, and the dense
  weight with the product and the bias — and its run: every weakly fair execution terminates with every buffer at the fold
  of these operations over the launch contents.
-/
import proofs.«117365_j45011257262638_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]
/-- The hidden layer: the features repeated eight times along the hidden axis, times w1, plus b1, then the leaky rectifier (its comparison, its scaled branch and the selection). -/
abbrev opsH : List (HloOp τ sig (Elt F)) :=
  [ StableHlo.unary main_arg0 main_v0 (broadcastInDim S1024x512x8 ![0, 1] bcast_S1024x512_S1024x512x8_0_1 : (⟨S1024x512, .f32⟩ : BufTy).Contents (Elt F) → (⟨S1024x512x8, .f32⟩ : BufTy).Contents (Elt F)),
    StableHlo.reshape main_v0 main_v1 rfl shapeCasts_S1024x512x8_S1024x4096,
    StableHlo.unary main_arg1 main_v2 (broadcastInDim S1x4096 ![1] bcast_S4096_S1x4096_1 : (⟨S4096, .f32⟩ : BufTy).Contents (Elt F) → (⟨S1x4096, .f32⟩ : BufTy).Contents (Elt F)),
    StableHlo.unary main_v2 main_v3 (broadcastInDim S1024x4096 ![0, 1] bcast_S1x4096_S1024x4096_0_1 : (⟨S1x4096, .f32⟩ : BufTy).Contents (Elt F) → (⟨S1024x4096, .f32⟩ : BufTy).Contents (Elt F)),
    StableHlo.binary main_v1 main_v3 main_v4 (mulf : (⟨S1024x4096, .f32⟩ : BufTy).Contents (Elt F) → (⟨S1024x4096, .f32⟩ : BufTy).Contents (Elt F) → (⟨S1024x4096, .f32⟩ : BufTy).Contents (Elt F)),
    StableHlo.unary main_arg2 main_v5 (broadcastInDim S1x4096 ![1] bcast_S4096_S1x4096_1 : (⟨S4096, .f32⟩ : BufTy).Contents (Elt F) → (⟨S1x4096, .f32⟩ : BufTy).Contents (Elt F)),
    StableHlo.unary main_v5 main_v6 (broadcastInDim S1024x4096 ![0, 1] bcast_S1x4096_S1024x4096_0_1 : (⟨S1x4096, .f32⟩ : BufTy).Contents (Elt F) → (⟨S1024x4096, .f32⟩ : BufTy).Contents (Elt F)),
    StableHlo.binary main_v4 main_v6 main_v7 (addf : (⟨S1024x4096, .f32⟩ : BufTy).Contents (Elt F) → (⟨S1024x4096, .f32⟩ : BufTy).Contents (Elt F) → (⟨S1024x4096, .f32⟩ : BufTy).Contents (Elt F)),
    StableHlo.nullary main_cst (constant S_ .f32 0x3C23D70A#32),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1024x4096, .f32⟩) (broadcastInDim S1024x4096 ![] bcast_S_S1024x4096),
    StableHlo.TRef.binary (.of main_v7 : StableHlo.TRef sig ⟨S1024x4096, .f32⟩) (.of main_call0_v0 : StableHlo.TRef sig ⟨S1024x4096, .f32⟩) (.of main_call0_v1 : StableHlo.TRef sig ⟨S1024x4096, .i1⟩) (cmpf .oge),
    StableHlo.TRef.unary (.of main_cst : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S1024x4096, .f32⟩) (broadcastInDim S1024x4096 ![] bcast_S_S1024x4096),
    StableHlo.TRef.binary (.of main_call0_v3 : StableHlo.TRef sig ⟨S1024x4096, .f32⟩) (.of main_v7 : StableHlo.TRef sig ⟨S1024x4096, .f32⟩) (.of main_call0_v4 : StableHlo.TRef sig ⟨S1024x4096, .f32⟩) mulf,
    StableHlo.TRef.ternary (.of main_call0_v1 : StableHlo.TRef sig ⟨S1024x4096, .i1⟩) (.of main_v7 : StableHlo.TRef sig ⟨S1024x4096, .f32⟩) (.of main_call0_v4 : StableHlo.TRef sig ⟨S1024x4096, .f32⟩) (.of main_v8 : StableHlo.TRef sig ⟨S1024x4096, .f32⟩) select ]

/-- The scatter indices (row = the gene's number, column = eight times its regulator plus the node's number, each wrapped once if negative), the zero operand and the weights flattened to one row per gene. -/
abbrev opsI : List (HloOp τ sig (Elt F)) :=
  [ StableHlo.unary main_arg5 main_v9 (broadcastInDim S20000x16x1 ![0, 1] bcast_S20000x16_S20000x16x1_0_1 : (⟨S20000x16, .i32⟩ : BufTy).Contents (Elt F) → (⟨S20000x16x1, .i32⟩ : BufTy).Contents (Elt F)),
    StableHlo.nullary main_c (constantI S_ 32 8#32),
    StableHlo.unary main_c main_v10 (broadcastInDim S20000x16x1 ![] bcast_S_S20000x16x1 : (⟨S_, .i32⟩ : BufTy).Contents (Elt F) → (⟨S20000x16x1, .i32⟩ : BufTy).Contents (Elt F)),
    StableHlo.binary main_v9 main_v10 main_v11 (muli : (⟨S20000x16x1, .i32⟩ : BufTy).Contents (Elt F) → (⟨S20000x16x1, .i32⟩ : BufTy).Contents (Elt F) → (⟨S20000x16x1, .i32⟩ : BufTy).Contents (Elt F)),
    StableHlo.nullary main_v12 (iotaInDim S8 32 0),
    StableHlo.unary main_v12 main_v13 (broadcastInDim S1x1x8 ![2] bcast_S8_S1x1x8_2 : (⟨S8, .i32⟩ : BufTy).Contents (Elt F) → (⟨S1x1x8, .i32⟩ : BufTy).Contents (Elt F)),
    StableHlo.unary main_v11 main_v14 (broadcastInDim S20000x16x8 ![0, 1, 2] bcast_S20000x16x1_S20000x16x8_0_1_2 : (⟨S20000x16x1, .i32⟩ : BufTy).Contents (Elt F) → (⟨S20000x16x8, .i32⟩ : BufTy).Contents (Elt F)),
    StableHlo.unary main_v13 main_v15 (broadcastInDim S20000x16x8 ![0, 1, 2] bcast_S1x1x8_S20000x16x8_0_1_2 : (⟨S1x1x8, .i32⟩ : BufTy).Contents (Elt F) → (⟨S20000x16x8, .i32⟩ : BufTy).Contents (Elt F)),
    StableHlo.binary main_v14 main_v15 main_v16 (addi : (⟨S20000x16x8, .i32⟩ : BufTy).Contents (Elt F) → (⟨S20000x16x8, .i32⟩ : BufTy).Contents (Elt F) → (⟨S20000x16x8, .i32⟩ : BufTy).Contents (Elt F)),
    StableHlo.reshape main_v16 main_v17 rfl shapeCasts_S20000x16x8_S20000x128,
    StableHlo.nullary main_v18 (iotaInDim S20000 32 0),
    StableHlo.unary main_v18 main_v19 (broadcastInDim S20000x1 ![0] bcast_S20000_S20000x1_0 : (⟨S20000, .i32⟩ : BufTy).Contents (Elt F) → (⟨S20000x1, .i32⟩ : BufTy).Contents (Elt F)),
    StableHlo.unary main_v19 main_v20 (broadcastInDim S20000x128 ![0, 1] bcast_S20000x1_S20000x128_0_1 : (⟨S20000x1, .i32⟩ : BufTy).Contents (Elt F) → (⟨S20000x128, .i32⟩ : BufTy).Contents (Elt F)),
    StableHlo.nullary main_cst_0 (constant S_ .f32 0x00000000#32),
    StableHlo.unary main_cst_0 main_v21 (broadcastInDim S20000x4096 ![] bcast_S_S20000x4096 : (⟨S_, .f32⟩ : BufTy).Contents (Elt F) → (⟨S20000x4096, .f32⟩ : BufTy).Contents (Elt F)),
    StableHlo.reshape main_arg3 main_v22 rfl shapeCasts_S20000x16x8_S20000x128,
    StableHlo.nullary main_c_1 (constantI S_ 32 0#32),
    StableHlo.unary main_c_1 main_v23 (broadcastInDim S20000x128 ![] bcast_S_S20000x128 : (⟨S_, .i32⟩ : BufTy).Contents (Elt F) → (⟨S20000x128, .i32⟩ : BufTy).Contents (Elt F)),
    StableHlo.binary main_v20 main_v23 main_v24 (cmpi .slt : (⟨S20000x128, .i32⟩ : BufTy).Contents (Elt F) → (⟨S20000x128, .i32⟩ : BufTy).Contents (Elt F) → (⟨S20000x128, .i1⟩ : BufTy).Contents (Elt F)),
    StableHlo.nullary main_c_2 (constantI S_ 32 20000#32),
    StableHlo.unary main_c_2 main_v25 (broadcastInDim S20000x128 ![] bcast_S_S20000x128 : (⟨S_, .i32⟩ : BufTy).Contents (Elt F) → (⟨S20000x128, .i32⟩ : BufTy).Contents (Elt F)),
    StableHlo.binary main_v20 main_v25 main_v26 (addi : (⟨S20000x128, .i32⟩ : BufTy).Contents (Elt F) → (⟨S20000x128, .i32⟩ : BufTy).Contents (Elt F) → (⟨S20000x128, .i32⟩ : BufTy).Contents (Elt F)),
    StableHlo.ternary main_v24 main_v26 main_v20 main_v27 (select : (⟨S20000x128, .i1⟩ : BufTy).Contents (Elt F) → (⟨S20000x128, .i32⟩ : BufTy).Contents (Elt F) → (⟨S20000x128, .i32⟩ : BufTy).Contents (Elt F) → (⟨S20000x128, .i32⟩ : BufTy).Contents (Elt F)),
    StableHlo.nullary main_c_3 (constantI S_ 32 0#32),
    StableHlo.unary main_c_3 main_v28 (broadcastInDim S20000x128 ![] bcast_S_S20000x128 : (⟨S_, .i32⟩ : BufTy).Contents (Elt F) → (⟨S20000x128, .i32⟩ : BufTy).Contents (Elt F)),
    StableHlo.binary main_v17 main_v28 main_v29 (cmpi .slt : (⟨S20000x128, .i32⟩ : BufTy).Contents (Elt F) → (⟨S20000x128, .i32⟩ : BufTy).Contents (Elt F) → (⟨S20000x128, .i1⟩ : BufTy).Contents (Elt F)),
    StableHlo.nullary main_c_4 (constantI S_ 32 4096#32),
    StableHlo.unary main_c_4 main_v30 (broadcastInDim S20000x128 ![] bcast_S_S20000x128 : (⟨S_, .i32⟩ : BufTy).Contents (Elt F) → (⟨S20000x128, .i32⟩ : BufTy).Contents (Elt F)),
    StableHlo.binary main_v17 main_v30 main_v31 (addi : (⟨S20000x128, .i32⟩ : BufTy).Contents (Elt F) → (⟨S20000x128, .i32⟩ : BufTy).Contents (Elt F) → (⟨S20000x128, .i32⟩ : BufTy).Contents (Elt F)),
    StableHlo.ternary main_v29 main_v31 main_v17 main_v32 (select : (⟨S20000x128, .i1⟩ : BufTy).Contents (Elt F) → (⟨S20000x128, .i32⟩ : BufTy).Contents (Elt F) → (⟨S20000x128, .i32⟩ : BufTy).Contents (Elt F) → (⟨S20000x128, .i32⟩ : BufTy).Contents (Elt F)),
    StableHlo.unary main_v27 main_v33 (broadcastInDim S20000x128x1 ![0, 1] bcast_S20000x128_S20000x128x1_0_1 : (⟨S20000x128, .i32⟩ : BufTy).Contents (Elt F) → (⟨S20000x128x1, .i32⟩ : BufTy).Contents (Elt F)),
    StableHlo.unary main_v32 main_v34 (broadcastInDim S20000x128x1 ![0, 1] bcast_S20000x128_S20000x128x1_0_1 : (⟨S20000x128, .i32⟩ : BufTy).Contents (Elt F) → (⟨S20000x128x1, .i32⟩ : BufTy).Contents (Elt F)),
    StableHlo.binary main_v33 main_v34 main_v35 ((fun a b => concatenate S20000x128x2 2 [⟨S20000x128x1, a⟩, ⟨S20000x128x1, b⟩] concatenates_S20000x128x1_S20000x128x1_S20000x128x2_d2) : (⟨S20000x128x1, .i32⟩ : BufTy).Contents (Elt F) → (⟨S20000x128x1, .i32⟩ : BufTy).Contents (Elt F) → (⟨S20000x128x2, .i32⟩ : BufTy).Contents (Elt F)) ]

/-- The dense weight by accumulating scatter, its transpose, the product with the hidden layer and the bias. -/
abbrev opsT : List (HloOp τ sig (Elt F)) :=
  [ StableHlo.ternary main_v21 main_v35 main_v22 main_v36 ((fun x i u => Host.scatterAdd scatter_S20000x4096_S20000x128x2_S20000x128_n_01_01_2 x i u) : (⟨S20000x4096, .f32⟩ : BufTy).Contents (Elt F) → (⟨S20000x128x2, .i32⟩ : BufTy).Contents (Elt F) → (⟨S20000x128, .f32⟩ : BufTy).Contents (Elt F) → (⟨S20000x4096, .f32⟩ : BufTy).Contents (Elt F)),
    StableHlo.unary main_v36 main_v37 ((transpose S4096x20000 [1, 0] · transposes_S20000x4096_S4096x20000_1_0) : (⟨S20000x4096, .f32⟩ : BufTy).Contents (Elt F) → (⟨S4096x20000, .f32⟩ : BufTy).Contents (Elt F)),
    StableHlo.binary main_v8 main_v37 main_v38 ((fun l r => Host.dotGeneral dot_S1024x4096_S4096x20000_S1024x20000_1_0_0_1_n_n none l r) : (⟨S1024x4096, .f32⟩ : BufTy).Contents (Elt F) → (⟨S4096x20000, .f32⟩ : BufTy).Contents (Elt F) → (⟨S1024x20000, .f32⟩ : BufTy).Contents (Elt F)),
    StableHlo.unary main_arg4 main_v39 (broadcastInDim S1x20000 ![1] bcast_S20000_S1x20000_1 : (⟨S20000, .f32⟩ : BufTy).Contents (Elt F) → (⟨S1x20000, .f32⟩ : BufTy).Contents (Elt F)),
    StableHlo.unary main_v39 main_v40 (broadcastInDim S1024x20000 ![0, 1] bcast_S1x20000_S1024x20000_0_1 : (⟨S1x20000, .f32⟩ : BufTy).Contents (Elt F) → (⟨S1024x20000, .f32⟩ : BufTy).Contents (Elt F)),
    StableHlo.binary main_v38 main_v40 main_v41 (addf : (⟨S1024x20000, .f32⟩ : BufTy).Contents (Elt F) → (⟨S1024x20000, .f32⟩ : BufTy).Contents (Elt F) → (⟨S1024x20000, .f32⟩ : BufTy).Contents (Elt F)) ]

/-- All of @main's operations, in order. -/
abbrev ops : List (HloOp τ sig (Elt F)) := opsH ++ opsI ++ opsT

set_option maxRecDepth 4096 in
/-- @main is that straight line: the outlined functions unfolded at their calls, sequencing reassociated. -/
theorem main_eq (c : Dev nD) : main (F := F) c = StableHlo.seq ops := by
  simp only [main, fn_leaky_relu.body, fn_where.body, StableHlo.seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsH_sub : (opsH : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem opsI_sub : (opsI : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.unary_bufs_sub .., StableHlo.nullary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub ..⟩
theorem opsT_sub : (opsT : List (HloOp τ sig (Elt F))).Forall fun op => op.bufs ⊆ StableHlo.tcRefs τ sig :=
  ⟨StableHlo.ternary_bufs_sub .., StableHlo.unary_bufs_sub .., StableHlo.binary_bufs_sub .., StableHlo.unary_bufs_sub .., StableHlo.unary_bufs_sub .., StableHlo.binary_bufs_sub ..⟩
theorem ops_sub : (ops : List (HloOp τ sig (Elt F))).Forall fun op => op.bufs ⊆ StableHlo.tcRefs τ sig :=
  List.forall_iff_forall_mem.mpr fun op hop => by
    rcases List.mem_append.mp hop with h | h
    · rcases List.mem_append.mp h with h | h
      · exact List.forall_iff_forall_mem.mp opsH_sub op h
      · exact List.forall_iff_forall_mem.mp opsI_sub op h
    · exact List.forall_iff_forall_mem.mp opsT_sub op h

/-- Every weakly fair execution of @main terminates, and every buffer ends at the fold of the operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.RefRun

end
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.RefValue.lean ====
/-
  What the reference program computes: its result array is the hidden layer times the transposed dense weight plus the
  bias, the dense weight the accumulating scatter of the flattened weights at the index pairs with rows wrapped by
  20000; its argument arrays end as they were.
-/
import proofs.«117365_j45011257262638_2_alg».proof.Proof.RefRun
import proofs.«117365_j45011257262638_2_alg».proof.Proof.Spec
import proofs.«117365_j45011257262638_2_alg».proof.Proof.LibHostRead
import proofs.«117365_j45011257262638_2_alg».proof.Proof.LibKeep

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Cert.HostRead Cert.Keep

/-- The result of the reference as one function of its argument arrays. -/
def out (x : FVec Ideal S1024x512 .f32) (w1 b1 : FVec Ideal S4096 .f32) (w2 : FVec Ideal S20000x16x8 .f32)
    (b2 : FVec Ideal S20000 .f32) (tf : IVec S20000x16 32) : FVec Ideal S1024x20000 .f32 :=
  Decoder.refOut (Decoder.hidden x w1 b1) (Decoder.denseR (Decoder.idxArr 20000#32 tf) (Decoder.flatW w2)) b2

set_option maxHeartbeats 16000000 in
/-- The operations' fold read at the result buffer is that function of the argument buffers. -/
theorem read_out (V : Valuation τ sig (Elt Ideal)) :
    after (ops (F := Ideal)) V (Proc.devRef .tc main_v41)
      = out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  simp only [ops, opsH, opsI, opsT, List.cons_append, List.nil_append]
  read_results
  rfl

/-- No operation writes argument 0. -/
theorem keep_arg0 (V : Valuation τ sig (Elt Ideal)) :
    after (ops (F := Ideal)) V (Proc.devRef .tc main_arg0) = V (Proc.devRef .tc main_arg0) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- No operation writes argument 1. -/
theorem keep_arg1 (V : Valuation τ sig (Elt Ideal)) :
    after (ops (F := Ideal)) V (Proc.devRef .tc main_arg1) = V (Proc.devRef .tc main_arg1) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- No operation writes argument 2. -/
theorem keep_arg2 (V : Valuation τ sig (Elt Ideal)) :
    after (ops (F := Ideal)) V (Proc.devRef .tc main_arg2) = V (Proc.devRef .tc main_arg2) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- No operation writes argument 3. -/
theorem keep_arg3 (V : Valuation τ sig (Elt Ideal)) :
    after (ops (F := Ideal)) V (Proc.devRef .tc main_arg3) = V (Proc.devRef .tc main_arg3) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- No operation writes argument 4. -/
theorem keep_arg4 (V : Valuation τ sig (Elt Ideal)) :
    after (ops (F := Ideal)) V (Proc.devRef .tc main_arg4) = V (Proc.devRef .tc main_arg4) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- No operation writes argument 5. -/
theorem keep_arg5 (V : Valuation τ sig (Elt Ideal)) :
    after (ops (F := Ideal)) V (Proc.devRef .tc main_arg5) = V (Proc.devRef .tc main_arg5) := by
  refine StableHlo.after_of_forall_not_mem _ _ (List.forall_iff_forall_mem.mp ?_)
  simp only [ops, opsH, opsI, opsT, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)

/-- Every weakly fair execution of the reference terminates with its result at `out` of the argument arrays as launched,
    and the argument arrays as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v41).trans (read_out _),
      (h c main_arg0).trans (keep_arg0 _), (h c main_arg1).trans (keep_arg1 _), (h c main_arg2).trans (keep_arg2 _),
      (h c main_arg3).trans (keep_arg3 _), (h c main_arg4).trans (keep_arg4 _), (h c main_arg5).trans (keep_arg5 _)⟩)
    (run_main (F := Ideal) m ρ)

end Cert.ReferenceIdeal.RefValue

end
-- ==== Proof.lean ====
/-
  The certificate: the three frames, the (empty) idealization ledger, and the algebraic claim.

  Both idealized programs compute, on the extended reals, the same decoder. The kernel program forms the hidden layer and
  the dense weight on the host, the weight with 480 extra rows of zeros, multiplies tile by tile inside the region with
  the contraction axis cut into four stretches that an accumulator sums in order, adds the zero-padded bias, and slices
  the padding away; the reference multiplies in one product. The two dense weights agree on the rows they share because an
  update lands on an entry exactly when its index pair names it; the four stretches' sums add up to the whole
  contraction; so the results are equal entry by entry, with no entry assumed finite.
-/
import proofs.«117365_j45011257262638_2_alg».proof.Defs
import proofs.«117365_j45011257262638_2_alg».proof.Proof.Gen.Kernel
import proofs.«117365_j45011257262638_2_alg».proof.Proof.Gen.Kernel.Frame
import proofs.«117365_j45011257262638_2_alg».proof.Proof.Gen.KernelIdeal
import proofs.«117365_j45011257262638_2_alg».proof.Proof.Gen.KernelIdeal.Frame
import proofs.«117365_j45011257262638_2_alg».proof.Proof.Gen.ReferenceIdeal
import proofs.«117365_j45011257262638_2_alg».proof.Proof.Gen.Pre_finite_inputs
import proofs.«117365_j45011257262638_2_alg».proof.Proof.KRun
import proofs.«117365_j45011257262638_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The two programs' results are one function of the argument arrays. -/
theorem out_eq (x : FVec Ideal Decoder.Sx .f32) (w1 b1 : FVec Ideal Decoder.Sv .f32) (w2 : FVec Ideal Decoder.Sw2 .f32)
    (b2 : FVec Ideal Decoder.Sn .f32) (tf : IVec Decoder.Stf 32) :
    Cert.ReferenceIdeal.RefValue.out x w1 b1 w2 b2 tf = Cert.KernelIdeal.KValue.out x w1 b1 w2 b2 tf := by
  unfold Cert.ReferenceIdeal.RefValue.out Cert.KernelIdeal.KValue.out
  rw [Decoder.out_eq, Decoder.idxArr_eq 20480#32 20000#32]

theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact out_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
